-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S_ : Shape := ⟨0, ![]⟩
abbrev S4x8192 : Shape := ⟨2, ![4, 8192]⟩
abbrev S4x512x3 : Shape := ⟨3, ![4, 512, 3]⟩
abbrev S4x512 : Shape := ⟨2, ![4, 512]⟩
abbrev S4x512x1 : Shape := ⟨3, ![4, 512, 1]⟩
abbrev S4x512x512 : Shape := ⟨3, ![4, 512, 512]⟩
abbrev S4x1x512 : Shape := ⟨3, ![4, 1, 512]⟩
abbrev S4 : Shape := ⟨1, ![4]⟩

abbrev nBuf : Space → Nat
  | .hbm => 28
  | .vmem => 14
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S_, .f32⟩
  | .hbm, ⟨3, _⟩ => ⟨S4x8192x3, .f32⟩
  | .hbm, ⟨4, _⟩ => ⟨S4x8192x3, .f32⟩
  | .hbm, ⟨5, _⟩ => ⟨S_, .f32⟩
  | .hbm, ⟨6, _⟩ => ⟨S4x8192x3, .f32⟩
  | .hbm, ⟨7, _⟩ => ⟨S4x8192x3, .f32⟩
  | .hbm, ⟨8, _⟩ => ⟨S4x8192, .f32⟩
  | .hbm, ⟨9, _⟩ => ⟨S4x8192, .f32⟩
  | .hbm, ⟨10, _⟩ => ⟨S_, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512x3, .f32⟩
  | .local _ .vmem, ⟨8, _⟩ => ⟨S4x512x3, .f32⟩
  | .local _ .vmem, ⟨9, _⟩ => ⟨S4x512x3, .f32⟩
  | .local _ .vmem, ⟨10, _⟩ => ⟨S4x512x3, .f32⟩
  | .local _ .vmem, ⟨11, _⟩ => ⟨S4x512, .f32⟩
  | .local _ .vmem, ⟨12, _⟩ => ⟨S4x512, .f32⟩
  | .local _ .vmem, ⟨13, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_15 : BitVec 32 := 0#32
  let v30 : BitVec 1 := Scalar.cmpi .ne v29 c0_i32_15
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_15 : BitVec 32 := 0#32
  let v30 : BitVec 1 := Scalar.cmpi .ne v29 c0_i32_15
  v30

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S4x8192x3 : S_.BroadcastsInDim S4x8192x3 (![] : Fin 0 → Fin S4x8192x3.rank)
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x512x3_S4x512x3_0_0_0 : ∀ a, (![0, 0, 0] : Fin 3 → Nat) a + S4x512x3.size a ≤ S4x512x3.size a
  h_S4x512x3 : 0 < S4x512x3.numel
  shapeCasts_S4x512x3_S4x512x3 : S4x512x3.ShapeCasts S4x512x3
  reduces_S4x512x3_S4x512 : S4x512x3.Reduces [2] S4x512
  shapeCasts_S4x512_S4x512x1 : S4x512.ShapeCasts S4x512x1
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  reduces_S4x512x512_S4x512 : S4x512x512.Reduces [2] S4x512
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_
  dot_S4x512x3_S4x512x3_S4x512x512_2_2_1_1_0_0_wf : DotDims.WF S4x512x3 S4x512x3 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x8192.size a
  hwx1_2 : ∀ i : grid1.Coords, EltTy.bits .f32 = 32 ∨ (Rect.block (s := S4x8192) S4x512.size (cc1_transform_2 i) (hinb1_2 i)).WholeWords (EltTy.packing .f32)

variable [Facts₀]

def dot_S4x512x3_S4x512x3_S4x512x512_2_2_1_1_0_0 : DotDims S4x512x3 S4x512x3 S4x512x512 where
  lhsContracting := [2]
  rhsContracting := [2]
  lhsNonContracting := [1]
  rhsNonContracting := [1]
  lhsBatch := [0]
  rhsBatch := [0]
  wf := dot_S4x512x3_S4x512x3_S4x512x512_2_2_1_1_0_0_wf

abbrev win0_0 : Pipeline.Window sig grid0 :=
  Pipeline.Window.ofSpec (Memref.whole main_v1) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v3) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 51
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S_, .f32⟩
  | .hbm, ⟨3, _⟩ => ⟨S4x8192x3, .f32⟩
  | .hbm, ⟨4, _⟩ => ⟨S4x8192x3, .f32⟩
  | .hbm, ⟨5, _⟩ => ⟨S_, .f32⟩
  | .hbm, ⟨6, _⟩ => ⟨S4x8192x3, .f32⟩
  | .hbm, ⟨7, _⟩ => ⟨S4x8192x3, .f32⟩
  | .hbm, ⟨8, _⟩ => ⟨S4x8192x3, .f32⟩
  | .hbm, ⟨9, _⟩ => ⟨S_, .f32⟩
  | .hbm, ⟨10, _⟩ => ⟨S4x8192, .f32⟩
  | .hbm, ⟨11, _⟩ => ⟨S4x8192x3, .f32⟩
  | .hbm, ⟨12, _⟩ => ⟨S_, .f32⟩
  | .hbm, ⟨13, _⟩ => ⟨S4x8192, .f32⟩
  | .hbm, ⟨14, _⟩ => ⟨S4x8192x8192, .f32⟩
  | .hbm, ⟨15, _⟩ => ⟨S4x8192x1, .f32⟩
  | .hbm, ⟨16, _⟩ => ⟨S4x1x8192, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S4x8192x8192, .f32⟩
  | .hbm, ⟨23, _⟩ => ⟨S4x8192x8192, .f32⟩
  | .hbm, ⟨24, _⟩ => ⟨S_, .f32⟩
  | .hbm, ⟨25, _⟩ => ⟨S4x8192x8192, .f32⟩
  | .hbm, ⟨26, _⟩ => ⟨S4x8192x8192, .f32⟩
  | .hbm, ⟨27, _⟩ => ⟨S_, .f32⟩
  | .hbm, ⟨28, _⟩ => ⟨S4x8192, .f32⟩
  | .hbm, ⟨29, _⟩ => ⟨S_, .f32⟩
  | .hbm, ⟨30, _⟩ => ⟨S4x8192, .f32⟩
  | .hbm, ⟨31, _⟩ => ⟨S4x8192, .f32⟩
  | .hbm, ⟨32, _⟩ => ⟨S_, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S4x8192, .f32⟩
  | .hbm, ⟨38, _⟩ => ⟨S_, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S4, .f32⟩
  | .hbm, ⟨44, _⟩ => ⟨S_, .f32⟩
  | .hbm, ⟨45, _⟩ => ⟨S4, .f32⟩
  | .hbm, ⟨46, _⟩ => ⟨S4, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_cst_10 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_11 : Ref sig .tc := ⟨.hbm, 44, rfl⟩
abbrev main_v30 : Ref sig .tc := ⟨.hbm, 45, rfl⟩
abbrev main_v31 : Ref sig .tc := ⟨.hbm, 46, rfl⟩
abbrev main_cst_12 : Ref sig .tc := ⟨.hbm, 47, rfl⟩
abbrev main_v32 : Ref sig .tc := ⟨.hbm, 48, rfl⟩
abbrev main_cst_13 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  bcast_S_S4x8192x3 : S_.BroadcastsInDim S4x8192x3 (![] : Fin 0 → Fin S4x8192x3.rank)
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Bits.Body0.lean ====
/-
  The kernel body of region 0 (one query tile of 512 points against one key tile of 512 points, all four batches),
  run symbolically on whole staging memrefs at any float instance: what it leaves in the running-minimum scratch and,
  at the last key tile, in the output block, as pure functions of what it found.
-/
import proofs.«140770_j50070728737514_1_alg».proof.Proof.Gen.Kernel.Launch
import proofs.«140770_j50070728737514_1_alg».proof.Proof.Gen.Kernel.Skeleton
import proofs.«140770_j50070728737514_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_0 : (![0, 0] : Fin 2 → Nat) = fun _ => 0 := funext fun a => by fin_cases a <;> rfl
theorem hz3_0 : (![0, 0, 0] : Fin 3 → Nat) = fun _ => 0 := funext fun a => by fin_cases a <;> rfl

/-! ## Region 0: the kernel body on any whole memrefs

The body's two conditionals depend on the second grid coordinate only: the first is taken at the first key tile
(where the running minimum in the scratch is reset to +∞), the second at the last key tile (where the square root
of the running minimum is stored into the output block). -/

abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

set_option maxHeartbeats 1000000 in
/-- First key tile (not the last): whatever the scratch held, it ends at the minimum of +∞ and this tile's row minima;
    the output block's buffer is not touched. -/
theorem body0_A (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hc0 : cond0_0 i) (hc1 : ¬cond0_1 i)
    (x0 x1 : Vec F S4x512x3 .f32) (d4 s : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare s
        ∗ (iprop(owns (c : Thread nD τ) arg2 fullShare x0 ∗ owns (c : Thread nD τ) arg3 fullShare x1 ∗ owns (c : Thread nD τ) arg4 fullShare d4 ∗ owns (c : Thread nD τ) arg5 fullShare (k0_pay2 x0 x1 (k0_pay1 (F := F)))) -∗ K ⟨⟩))
      ⊢ wp frame (wpE (defs₀ (F := F)) Variants.none c none) E (cc0__min_dist_kernel i arg2 harg2 arg3 harg3 arg4 harg4 arg5 harg5) K := by
  simp only [cc0__min_dist_kernel_eq_skeleton]; unfold cc0__min_dist_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  rw [View.read_writes_eq_canon _ _ _ (fun y => ⟨_, List.mem_cons_self, View.mem_set_unit_zero hz2_0 inb_S4x512_S4x512_0_0 y⟩), View.canon_cons_unit_zero hz2_0]
  sl_unfold_run_names
  simp only [View.readAt_eq_ld, harg2.read_unread, harg3.read_unread, View.ld_unit_zero (S := S4x512x3) hz3_0, View.readCov_unit_zero (S := S4x512) _ hz2_0]

set_option maxHeartbeats 1000000 in
/-- A middle key tile: the scratch at `s` ends at the minimum of `s` and this tile's row minima; the output block's
    buffer is not touched. -/
theorem body0_B (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hc0 : ¬cond0_0 i) (hc1 : ¬cond0_1 i)
    (x0 x1 : Vec F S4x512x3 .f32) (d4 s : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare s
        ∗ (iprop(owns (c : Thread nD τ) arg2 fullShare x0 ∗ owns (c : Thread nD τ) arg3 fullShare x1 ∗ owns (c : Thread nD τ) arg4 fullShare d4 ∗ owns (c : Thread nD τ) arg5 fullShare (k0_pay2 x0 x1 s)) -∗ K ⟨⟩))
      ⊢ wp frame (wpE (defs₀ (F := F)) Variants.none c none) E (cc0__min_dist_kernel i arg2 harg2 arg3 harg3 arg4 harg4 arg5 harg5) K := by
  simp only [cc0__min_dist_kernel_eq_skeleton]; unfold cc0__min_dist_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  rw [View.read_writes_eq_canon _ _ _ (fun y => ⟨_, List.mem_cons_self, View.mem_set_unit_zero hz2_0 inb_S4x512_S4x512_0_0 y⟩), View.canon_cons_unit_zero hz2_0]
  sl_unfold_run_names
  simp only [View.readAt_eq_ld, harg2.read_unread, harg3.read_unread, harg5.read_unread, View.ld_unit_zero (S := S4x512x3) hz3_0, View.ld_unit_zero (S := S4x512) hz2_0]

set_option maxHeartbeats 1000000 in
/-- The last key tile: the scratch at `s` ends at the minimum of `s` and this tile's row minima, and the output block's
    buffer, whatever it held, at the square root of that. -/
theorem body0_C (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hc0 : ¬cond0_0 i) (hc1 : cond0_1 i)
    (x0 x1 : Vec F S4x512x3 .f32) (d4 s : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare s
        ∗ (iprop(owns (c : Thread nD τ) arg2 fullShare x0 ∗ owns (c : Thread nD τ) arg3 fullShare x1 ∗ owns (c : Thread nD τ) arg4 fullShare (k0_pay3 (k0_pay2 x0 x1 s)) ∗ owns (c : Thread nD τ) arg5 fullShare (k0_pay2 x0 x1 s)) -∗ K ⟨⟩))
      ⊢ wp frame (wpE (defs₀ (F := F)) Variants.none c none) E (cc0__min_dist_kernel i arg2 harg2 arg3 harg3 arg4 harg4 arg5 harg5) K := by
  simp only [cc0__min_dist_kernel_eq_skeleton]; unfold cc0__min_dist_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    rw [View.read_writes_eq_canon _ _ _ (fun y => ⟨_, List.mem_cons_self, View.mem_set_unit_zero hz2_0 inb_S4x512_S4x512_0_0 y⟩), View.canon_cons_unit_zero hz2_0]
    sl_unfold_run_names
    simp only [View.readAt_eq_ld, harg2.read_unread, harg3.read_unread, harg5.read_unread, View.ld_unit_zero (S := S4x512x3) hz3_0, View.ld_unit_zero (S := S4x512) hz2_0, View.readCov_unit_zero (S := S4x512) _ hz2_0]
  iexists _; isplitr
  swap; · iexact H5
  ipureintro
  sl_unfold_run_names
  rw [View.read_writes_eq_canon _ _ _ (fun y => ⟨_, List.mem_cons_self, View.mem_set_unit_zero hz2_0 inb_S4x512_S4x512_0_0 y⟩), View.canon_cons_unit_zero hz2_0]
  sl_unfold_run_names
  simp only [View.readAt_eq_ld, harg2.read_unread, harg3.read_unread, harg5.read_unread, View.ld_unit_zero (S := S4x512x3) hz3_0, View.ld_unit_zero (S := S4x512) hz2_0]

end Cert.Kernel.Hand

end
-- ==== Proof.Bits.Region0.lean ====
/-
  Region 0 as one pipeline: each window's block at a grid point, the running minimum the scratch carries from one key
  tile to the next, the region's invariant (the scratch tracked at that running minimum), the pipeline's proof data and
  the body obligation at every one of the 256 grid points, at any float instance.
-/
import proofs.«140770_j50070728737514_1_alg».proof.Proof.Bits.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's staging buffer holds its block at every point, fetched there or not (its block index moves
    only with the first grid coordinate). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The key window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The conditionals over the grid: point `t` is key tile `t mod 16` of query tile `t / 16` -/

theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)
theorem liveAt0_0 : ∀ t : Fin cfg0.N, cfg0.idle 0 (grid0.coords t) = false := by decide +kernel
theorem liveAt0_1 : ∀ t : Fin cfg0.N, cfg0.idle 1 (grid0.coords t) = false := by decide +kernel
/-- The output window is idle (nothing stored, nothing written back) except at the last key tile. -/
theorem idleAt0_2 : ∀ t : Fin cfg0.N, ¬t.val % 16 = 15 → cfg0.idle 2 (grid0.coords t) = true := by decide +kernel
theorem noFlush0_2 : ∀ t : Fin cfg0.N, ¬t.val % 16 = 15 → (cfg0.win 2).flush t = false := by decide +kernel
theorem liveAt0_2 : ∀ t : Fin cfg0.N, t.val % 16 = 15 → cfg0.idle 2 (grid0.coords t) = false := by decide +kernel

/-- Each window's current staging memref at point `t`, as the pipeline passes it to the body. -/
abbrev ms0_0 (t : Fin cfg0.N) : Memref sig .tc .vmem S4x512x3 .f32 := win0_0.stage (cfg0.slots t 0)
abbrev ms0_1 (t : Fin cfg0.N) : Memref sig .tc .vmem S4x512x3 .f32 := win0_1.stage (cfg0.slots t 1)
abbrev ms0_2 (t : Fin cfg0.N) : Memref sig .tc .vmem S4x512 .f32 := win0_2.stage (cfg0.slots t 2)

/-! ## The running minimum, point by point -/

/-- What the scratch holds after the body at position `n`: at a first key tile the tile's row minima against +∞,
    elsewhere against what the point before left. -/
def acc0 (c : Dev nD) : (n : ℕ) → n < cfg0.N → Vec F S4x512 .f32
  | 0, hn => k0_pay2 (iblk0 V c 0 ⟨0, hn⟩) (iblk0 V c 1 ⟨0, hn⟩) (k0_pay1 (F := F))
  | n + 1, hn =>
    if (n + 1) % 16 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

theorem acc0_first (c : Dev nD) (t : Fin cfg0.N) (h0 : t.val % 16 = 0) :
    acc0 V c t.val t.isLt = k0_pay2 (iblk0 V c 0 t) (iblk0 V c 1 t) (k0_pay1 (F := F)) := by
  obtain ⟨n, hn⟩ := t
  cases n with
  | zero => rfl
  | succ n => exact if_pos h0

theorem acc0_next (c : Dev nD) (t : Fin cfg0.N) (h0 : ¬t.val % 16 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact if_neg h0

/-! ## The region's invariant: the scoped buffers no window stages, the scratch among them tracked -/

/-- The scoped buffers that are neither a staging buffer of this region nor its scratch, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_split (c : Dev nD) : (Pipeline.ΦA spec0 c : sProp 𝕄)
    ⊢ iprop((∃ d, owns (c : Thread nD τ) (Memref.whole cc0_scratch0) fullShare d) ∗ rest0 (F := F) c ∗ ∃ r, prngReg c r) := by
  unfold Pipeline.ΦA rest0; rw [scopedRest0_eq]; simp only [owns_whole]
  iintro ⟨⟨Hs, H1, H2, H3, H4, H5, H6, H7⟩, Hg⟩
  isplitl [Hs]; · iexact Hs
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg

theorem PhiA0_join (c : Dev nD) : iprop((∃ d, owns (c : Thread nD τ) (Memref.whole cc0_scratch0) fullShare d) ∗ rest0 (F := F) c ∗ ∃ r, prngReg c r)
    ⊢ (Pipeline.ΦA spec0 c : sProp 𝕄) := by
  unfold Pipeline.ΦA rest0; rw [scopedRest0_eq]; simp only [owns_whole]
  iintro ⟨Hs, ⟨H1, H2, H3, H4, H5, H6, H7⟩, Hg⟩
  isplitl [Hs H1 H2 H3 H4 H5 H6 H7]
  · isplitl [Hs]; · iexact Hs
    isplitl [H1]; · iexact H1
    isplitl [H2]; · iexact H2
    isplitl [H3]; · iexact H3
    isplitl [H4]; · iexact H4
    isplitl [H5]; · iexact H5
    isplitl [H6]; · iexact H6
    iexact H7
  iexact Hg

/-- Before position `n`: before the first point every scoped buffer at anything; afterwards the scratch at the running
    minimum the point before left. -/
def PhiS0 (c : Dev nD) : (n : ℕ) → n ≤ cfg0.N → sProp 𝕄
  | 0, _ => Pipeline.ΦA spec0 c
  | n + 1, hn => iprop(owns (c : Thread nD τ) (Memref.whole cc0_scratch0) fullShare (acc0 V c n hn) ∗ rest0 (F := F) c ∗ ∃ r, prngReg c r)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) (Memref.whole cc0_scratch0) fullShare (acc0 V c n hn) ∗ rest0 (F := F) c ∗ ∃ r, prngReg c r) := rfl
theorem PhiS0_pos (c : Dev nD) (n : ℕ) (h : n ≤ cfg0.N) (hz : n ≠ 0) :
    PhiS0 V c n h = iprop(owns (c : Thread nD τ) (Memref.whole cc0_scratch0) fullShare (acc0 V c (n - 1) (by omega)) ∗ rest0 (F := F) c ∗ ∃ r, prngReg c r) := by
  cases n with
  | zero => exact absurd rfl hz
  | succ n => rfl

/-! ## The pipeline's proof data -/

/-- The arrays as the region finds them; after the body each input's buffer at its block and the output's at the
    square root of the running minimum (consulted at the last key tile only: elsewhere the window is idle); the
    invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the point's place among the sixteen key tiles says
    which of the three runs applies; the invariant hands the body the scratch at what the point before left (at
    anything before the first point) and takes it back at this point's running minimum; the output's buffer is handed
    back untouched except at the last key tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  have hN : t.val < 256 := lt_of_lt_of_eq t.isLt (show cfg0.N = 256 from N_0)
  by_cases h1 : t.val % 16 = 15
  · have h0 : ¬t.val % 16 = 0 := by omega
    have hz : t.val ≠ 0 := by omega
    rw [show (dat0 V c).leavesExact 2 t = owns (c : Thread nD τ) (ms0_2 t) fullShare ((dat0 V c).after 2 t) from by
      unfold Dat.leavesExact; rw [liveAt0_2 t h1], after0_2]
    rw [acc0_next V c t h0, PhiS0_castSucc V c t, PhiS0_pos V c _ _ hz]
    iintro ⟨⟨HS, Hr, Hg⟩, Ho, ⟨%d0, H0⟩, ⟨%d1, H1⟩, ⟨%d2, H2⟩⟩
    iapply (body0_C c (grid0.coords t) _ _ _ _ _ _ _ _ (fun h => h0 ((hcond0_0 t).mp h)) ((hcond0_1 t).mpr h1) (iblk0 V c 0 t) (iblk0 V c 1 t) _ _ Set.univ _)
    isplitl [H0]; · iexact H0
    isplitl [H1]; · iexact H1
    isplitl [H2]; · iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · rw [Dat.leavesExact_idle (dat0 V c) 2 t (idleAt0_2 t h1) (noFlush0_2 t h1)]
    by_cases h0 : t.val % 16 = 0
    · rw [acc0_first V c t h0]
      by_cases hz : t.val = 0
      · rw [PhiS0_castSucc V c t, PhiS0_zero V c _ _ hz]
        iintro ⟨HΦ, Ho, ⟨%d0, H0⟩, ⟨%d1, H1⟩, ⟨%d2, H2⟩⟩
        ihave HΦ' := (PhiA0_split (F := F) c) $$ HΦ
        icases HΦ' with ⟨⟨%s, HS⟩, Hr, Hg⟩
        iapply (body0_A c (grid0.coords t) _ _ _ _ _ _ _ _ ((hcond0_0 t).mpr h0) (fun h => h1 ((hcond0_1 t).mp h)) (iblk0 V c 0 t) (iblk0 V c 1 t) _ _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨HS, Hr, Hg⟩, Ho, ⟨%d0, H0⟩, ⟨%d1, H1⟩, ⟨%d2, H2⟩⟩
        iapply (body0_A c (grid0.coords t) _ _ _ _ _ _ _ _ ((hcond0_0 t).mpr h0) (fun h => h1 ((hcond0_1 t).mp h)) (iblk0 V c 0 t) (iblk0 V c 1 t) _ _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
    · have hz : t.val ≠ 0 := fun h => h0 (by rw [h])
      rw [acc0_next V c t h0, PhiS0_castSucc V c t, PhiS0_pos V c _ _ hz]
      iintro ⟨⟨HS, Hr, Hg⟩, Ho, ⟨%d0, H0⟩, ⟨%d1, H1⟩, ⟨%d2, H2⟩⟩
      iapply (body0_B c (grid0.coords t) _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class's back: what the scratch holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  iintro ⟨HS, Hr, Hg⟩
  iapply (PhiA0_join (F := F) c)
  isplitl [HS]; · iexists _; iexact HS
  isplitl [Hr]; · iexact Hr
  iexact Hg

theorem hout0 (c : Dev nD) : (dat0 V c).Φ (Fin.last cfg0.N) ⊢ Pipeline.ΦA spec0 c :=
  Phi_out0 V c _ (by rw [Fin.val_last]; have : cfg0.N = 256 := N_0; omega)

end

end Cert.Kernel.Hand

end
-- ==== Proof.Bits.Body1.lean ====
/-
  The kernel body of region 1 (one query tile of 512 points against one key tile of 512 points, all four batches),
  run symbolically on whole staging memrefs at any float instance: what it leaves in the running-minimum scratch and,
  at the last key tile, in the output block, as pure functions of what it found.
-/
import proofs.«140770_j50070728737514_1_alg».proof.Proof.Gen.Kernel.Launch
import proofs.«140770_j50070728737514_1_alg».proof.Proof.Gen.Kernel.Skeleton
import proofs.«140770_j50070728737514_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_1 : (![0, 0] : Fin 2 → Nat) = fun _ => 0 := funext fun a => by fin_cases a <;> rfl
theorem hz3_1 : (![0, 0, 0] : Fin 3 → Nat) = fun _ => 0 := funext fun a => by fin_cases a <;> rfl

/-! ## Region 1: the kernel body on any whole memrefs

The body's two conditionals depend on the second grid coordinate only: the first is taken at the first key tile
(where the running minimum in the scratch is reset to +∞), the second at the last key tile (where the square root
of the running minimum is stored into the output block). -/

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

set_option maxHeartbeats 1000000 in
/-- First key tile (not the last): whatever the scratch held, it ends at the minimum of +∞ and this tile's row minima;
    the output block's buffer is not touched. -/
theorem body1_A (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hc0 : cond1_0 i) (hc1 : ¬cond1_1 i)
    (x0 x1 : Vec F S4x512x3 .f32) (d4 s : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare s
        ∗ (iprop(owns (c : Thread nD τ) arg2 fullShare x0 ∗ owns (c : Thread nD τ) arg3 fullShare x1 ∗ owns (c : Thread nD τ) arg4 fullShare d4 ∗ owns (c : Thread nD τ) arg5 fullShare (k1_pay2 x0 x1 (k1_pay1 (F := F)))) -∗ K ⟨⟩))
      ⊢ wp frame (wpE (defs₀ (F := F)) Variants.none c none) E (cc1__min_dist_kernel i arg2 harg2 arg3 harg3 arg4 harg4 arg5 harg5) K := by
  simp only [cc1__min_dist_kernel_eq_skeleton]; unfold cc1__min_dist_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  rw [View.read_writes_eq_canon _ _ _ (fun y => ⟨_, List.mem_cons_self, View.mem_set_unit_zero hz2_1 inb_S4x512_S4x512_0_0 y⟩), View.canon_cons_unit_zero hz2_1]
  sl_unfold_run_names
  simp only [View.readAt_eq_ld, harg2.read_unread, harg3.read_unread, View.ld_unit_zero (S := S4x512x3) hz3_1, View.readCov_unit_zero (S := S4x512) _ hz2_1]

set_option maxHeartbeats 1000000 in
/-- A middle key tile: the scratch at `s` ends at the minimum of `s` and this tile's row minima; the output block's
    buffer is not touched. -/
theorem body1_B (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hc0 : ¬cond1_0 i) (hc1 : ¬cond1_1 i)
    (x0 x1 : Vec F S4x512x3 .f32) (d4 s : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare s
        ∗ (iprop(owns (c : Thread nD τ) arg2 fullShare x0 ∗ owns (c : Thread nD τ) arg3 fullShare x1 ∗ owns (c : Thread nD τ) arg4 fullShare d4 ∗ owns (c : Thread nD τ) arg5 fullShare (k1_pay2 x0 x1 s)) -∗ K ⟨⟩))
      ⊢ wp frame (wpE (defs₀ (F := F)) Variants.none c none) E (cc1__min_dist_kernel i arg2 harg2 arg3 harg3 arg4 harg4 arg5 harg5) K := by
  simp only [cc1__min_dist_kernel_eq_skeleton]; unfold cc1__min_dist_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  rw [View.read_writes_eq_canon _ _ _ (fun y => ⟨_, List.mem_cons_self, View.mem_set_unit_zero hz2_1 inb_S4x512_S4x512_0_0 y⟩), View.canon_cons_unit_zero hz2_1]
  sl_unfold_run_names
  simp only [View.readAt_eq_ld, harg2.read_unread, harg3.read_unread, harg5.read_unread, View.ld_unit_zero (S := S4x512x3) hz3_1, View.ld_unit_zero (S := S4x512) hz2_1]

set_option maxHeartbeats 1000000 in
/-- The last key tile: the scratch at `s` ends at the minimum of `s` and this tile's row minima, and the output block's
    buffer, whatever it held, at the square root of that. -/
theorem body1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hc0 : ¬cond1_0 i) (hc1 : cond1_1 i)
    (x0 x1 : Vec F S4x512x3 .f32) (d4 s : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare s
        ∗ (iprop(owns (c : Thread nD τ) arg2 fullShare x0 ∗ owns (c : Thread nD τ) arg3 fullShare x1 ∗ owns (c : Thread nD τ) arg4 fullShare (k1_pay3 (k1_pay2 x0 x1 s)) ∗ owns (c : Thread nD τ) arg5 fullShare (k1_pay2 x0 x1 s)) -∗ K ⟨⟩))
      ⊢ wp frame (wpE (defs₀ (F := F)) Variants.none c none) E (cc1__min_dist_kernel i arg2 harg2 arg3 harg3 arg4 harg4 arg5 harg5) K := by
  simp only [cc1__min_dist_kernel_eq_skeleton]; unfold cc1__min_dist_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    rw [View.read_writes_eq_canon _ _ _ (fun y => ⟨_, List.mem_cons_self, View.mem_set_unit_zero hz2_1 inb_S4x512_S4x512_0_0 y⟩), View.canon_cons_unit_zero hz2_1]
    sl_unfold_run_names
    simp only [View.readAt_eq_ld, harg2.read_unread, harg3.read_unread, harg5.read_unread, View.ld_unit_zero (S := S4x512x3) hz3_1, View.ld_unit_zero (S := S4x512) hz2_1, View.readCov_unit_zero (S := S4x512) _ hz2_1]
  iexists _; isplitr
  swap; · iexact H5
  ipureintro
  sl_unfold_run_names
  rw [View.read_writes_eq_canon _ _ _ (fun y => ⟨_, List.mem_cons_self, View.mem_set_unit_zero hz2_1 inb_S4x512_S4x512_0_0 y⟩), View.canon_cons_unit_zero hz2_1]
  sl_unfold_run_names
  simp only [View.readAt_eq_ld, harg2.read_unread, harg3.read_unread, harg5.read_unread, View.ld_unit_zero (S := S4x512x3) hz3_1, View.ld_unit_zero (S := S4x512) hz2_1]

end Cert.Kernel.Hand

end
-- ==== Proof.Bits.Region1.lean ====
/-
  Region 1 as one pipeline: each window's block at a grid point, the running minimum the scratch carries from one key
  tile to the next, the region's invariant (the scratch tracked at that running minimum), the pipeline's proof data and
  the body obligation at every one of the 256 grid points, at any float instance.
-/
import proofs.«140770_j50070728737514_1_alg».proof.Proof.Bits.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point, fetched there or not (its block index moves
    only with the first grid coordinate). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The conditionals over the grid: point `t` is key tile `t mod 16` of query tile `t / 16` -/

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)
theorem liveAt1_0 : ∀ t : Fin cfg1.N, cfg1.idle 0 (grid1.coords t) = false := by decide +kernel
theorem liveAt1_1 : ∀ t : Fin cfg1.N, cfg1.idle 1 (grid1.coords t) = false := by decide +kernel
/-- The output window is idle (nothing stored, nothing written back) except at the last key tile. -/
theorem idleAt1_2 : ∀ t : Fin cfg1.N, ¬t.val % 16 = 15 → cfg1.idle 2 (grid1.coords t) = true := by decide +kernel
theorem noFlush1_2 : ∀ t : Fin cfg1.N, ¬t.val % 16 = 15 → (cfg1.win 2).flush t = false := by decide +kernel
theorem liveAt1_2 : ∀ t : Fin cfg1.N, t.val % 16 = 15 → cfg1.idle 2 (grid1.coords t) = false := by decide +kernel

/-- Each window's current staging memref at point `t`, as the pipeline passes it to the body. -/
abbrev ms1_0 (t : Fin cfg1.N) : Memref sig .tc .vmem S4x512x3 .f32 := win1_0.stage (cfg1.slots t 0)
abbrev ms1_1 (t : Fin cfg1.N) : Memref sig .tc .vmem S4x512x3 .f32 := win1_1.stage (cfg1.slots t 1)
abbrev ms1_2 (t : Fin cfg1.N) : Memref sig .tc .vmem S4x512 .f32 := win1_2.stage (cfg1.slots t 2)

/-! ## The running minimum, point by point -/

/-- What the scratch holds after the body at position `n`: at a first key tile the tile's row minima against +∞,
    elsewhere against what the point before left. -/
def acc1 (c : Dev nD) : (n : ℕ) → n < cfg1.N → Vec F S4x512 .f32
  | 0, hn => k1_pay2 (iblk1 V c 0 ⟨0, hn⟩) (iblk1 V c 1 ⟨0, hn⟩) (k1_pay1 (F := F))
  | n + 1, hn =>
    if (n + 1) % 16 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_first (c : Dev nD) (t : Fin cfg1.N) (h0 : t.val % 16 = 0) :
    acc1 V c t.val t.isLt = k1_pay2 (iblk1 V c 0 t) (iblk1 V c 1 t) (k1_pay1 (F := F)) := by
  obtain ⟨n, hn⟩ := t
  cases n with
  | zero => rfl
  | succ n => exact if_pos h0

theorem acc1_next (c : Dev nD) (t : Fin cfg1.N) (h0 : ¬t.val % 16 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact if_neg h0

/-! ## The region's invariant: the scoped buffers no window stages, the scratch among them tracked -/

/-- The scoped buffers that are neither a staging buffer of this region nor its scratch, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

theorem PhiA1_split (c : Dev nD) : (Pipeline.ΦA spec1 c : sProp 𝕄)
    ⊢ iprop((∃ d, owns (c : Thread nD τ) (Memref.whole cc1_scratch0) fullShare d) ∗ rest1 (F := F) c ∗ ∃ r, prngReg c r) := by
  unfold Pipeline.ΦA rest1; rw [scopedRest1_eq]; simp only [owns_whole]
  iintro ⟨⟨H1, H2, H3, H4, H5, H6, H7, Hs⟩, Hg⟩
  isplitl [Hs]; · iexact Hs
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg

theorem PhiA1_join (c : Dev nD) : iprop((∃ d, owns (c : Thread nD τ) (Memref.whole cc1_scratch0) fullShare d) ∗ rest1 (F := F) c ∗ ∃ r, prngReg c r)
    ⊢ (Pipeline.ΦA spec1 c : sProp 𝕄) := by
  unfold Pipeline.ΦA rest1; rw [scopedRest1_eq]; simp only [owns_whole]
  iintro ⟨Hs, ⟨H1, H2, H3, H4, H5, H6, H7⟩, Hg⟩
  isplitl [Hs H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact Hs
  iexact Hg

/-- Before position `n`: before the first point every scoped buffer at anything; afterwards the scratch at the running
    minimum the point before left. -/
def PhiS1 (c : Dev nD) : (n : ℕ) → n ≤ cfg1.N → sProp 𝕄
  | 0, _ => Pipeline.ΦA spec1 c
  | n + 1, hn => iprop(owns (c : Thread nD τ) (Memref.whole cc1_scratch0) fullShare (acc1 V c n hn) ∗ rest1 (F := F) c ∗ ∃ r, prngReg c r)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) (Memref.whole cc1_scratch0) fullShare (acc1 V c n hn) ∗ rest1 (F := F) c ∗ ∃ r, prngReg c r) := rfl
theorem PhiS1_pos (c : Dev nD) (n : ℕ) (h : n ≤ cfg1.N) (hz : n ≠ 0) :
    PhiS1 V c n h = iprop(owns (c : Thread nD τ) (Memref.whole cc1_scratch0) fullShare (acc1 V c (n - 1) (by omega)) ∗ rest1 (F := F) c ∗ ∃ r, prngReg c r) := by
  cases n with
  | zero => exact absurd rfl hz
  | succ n => rfl

/-! ## The pipeline's proof data -/

/-- The arrays as the region finds them; after the body each input's buffer at its block and the output's at the
    square root of the running minimum (consulted at the last key tile only: elsewhere the window is idle); the
    invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point's place among the sixteen key tiles says
    which of the three runs applies; the invariant hands the body the scratch at what the point before left (at
    anything before the first point) and takes it back at this point's running minimum; the output's buffer is handed
    back untouched except at the last key tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  have hN : t.val < 256 := lt_of_lt_of_eq t.isLt (show cfg1.N = 256 from N_1)
  by_cases h1 : t.val % 16 = 15
  · have h0 : ¬t.val % 16 = 0 := by omega
    have hz : t.val ≠ 0 := by omega
    rw [show (dat1 V c).leavesExact 2 t = owns (c : Thread nD τ) (ms1_2 t) fullShare ((dat1 V c).after 2 t) from by
      unfold Dat.leavesExact; rw [liveAt1_2 t h1], after1_2]
    rw [acc1_next V c t h0, PhiS1_castSucc V c t, PhiS1_pos V c _ _ hz]
    iintro ⟨⟨HS, Hr, Hg⟩, Ho, ⟨%d0, H0⟩, ⟨%d1, H1⟩, ⟨%d2, H2⟩⟩
    iapply (body1_C c (grid1.coords t) _ _ _ _ _ _ _ _ (fun h => h0 ((hcond1_0 t).mp h)) ((hcond1_1 t).mpr h1) (iblk1 V c 0 t) (iblk1 V c 1 t) _ _ Set.univ _)
    isplitl [H0]; · iexact H0
    isplitl [H1]; · iexact H1
    isplitl [H2]; · iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · rw [Dat.leavesExact_idle (dat1 V c) 2 t (idleAt1_2 t h1) (noFlush1_2 t h1)]
    by_cases h0 : t.val % 16 = 0
    · rw [acc1_first V c t h0]
      by_cases hz : t.val = 0
      · rw [PhiS1_castSucc V c t, PhiS1_zero V c _ _ hz]
        iintro ⟨HΦ, Ho, ⟨%d0, H0⟩, ⟨%d1, H1⟩, ⟨%d2, H2⟩⟩
        ihave HΦ' := (PhiA1_split (F := F) c) $$ HΦ
        icases HΦ' with ⟨⟨%s, HS⟩, Hr, Hg⟩
        iapply (body1_A c (grid1.coords t) _ _ _ _ _ _ _ _ ((hcond1_0 t).mpr h0) (fun h => h1 ((hcond1_1 t).mp h)) (iblk1 V c 0 t) (iblk1 V c 1 t) _ _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨HS, Hr, Hg⟩, Ho, ⟨%d0, H0⟩, ⟨%d1, H1⟩, ⟨%d2, H2⟩⟩
        iapply (body1_A c (grid1.coords t) _ _ _ _ _ _ _ _ ((hcond1_0 t).mpr h0) (fun h => h1 ((hcond1_1 t).mp h)) (iblk1 V c 0 t) (iblk1 V c 1 t) _ _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
    · have hz : t.val ≠ 0 := fun h => h0 (by rw [h])
      rw [acc1_next V c t h0, PhiS1_castSucc V c t, PhiS1_pos V c _ _ hz]
      iintro ⟨⟨HS, Hr, Hg⟩, Ho, ⟨%d0, H0⟩, ⟨%d1, H1⟩, ⟨%d2, H2⟩⟩
      iapply (body1_B c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's back: what the scratch holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS, Hr, Hg⟩
  iapply (PhiA1_join (F := F) c)
  isplitl [HS]; · iexists _; iexact HS
  isplitl [Hr]; · iexact Hr
  iexact Hg

theorem hout1 (c : Dev nD) : (dat1 V c).Φ (Fin.last cfg1.N) ⊢ Pipeline.ΦA spec1 c :=
  Phi_out1 V c _ (by rw [Fin.val_last]; have : cfg1.N = 256 := N_1; omega)

end

end Cert.Kernel.Hand

end
-- ==== Proof.Bits.Run.lean ====
/-
  @main as four segments — the host stretch dividing both point sets by the scale, the two regions (query = first set /
  keys = second set, then the two swapped), and the host stretch taking the two row means, their half-sum and the batch
  mean — run from the launch memory: the contents of every unscoped buffer at each boundary as a fold, the two regions'
  records over one thread state, and the run's last memory read at every unscoped buffer. The frame claim is that run read
  at the two argument arrays, which no segment writes.
-/
import proofs.«140770_j50070728737514_1_alg».proof.Proof.Bits.Region0
import proofs.«140770_j50070728737514_1_alg».proof.Proof.Bits.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary of @main: a fold from the launch memory -/

/-- Core `c`'s buffers at launch. -/
abbrev W0 (c : Dev nD) : Valuation τ sig (Elt F) := fun b => m (c, b)
/-- After the first host stretch (the two divisions by the scale): region 0's entry. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit (it is entered where region 0 is left). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host stretch (the two means, their half-sum, the mean over the batch). -/
abbrev W4 (c : Dev nD) : Valuation τ sig (Elt F) := StableHlo.after hostOps2 (W3 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state "every unscoped buffer at the boundary's contents, the generator register at some
    state, nothing owed": its arrays are split out of the unscoped buffers at entry and put back at what the write-backs
    leave at exit; the generator register and the scoped rest go into the region's invariant and come back out, the
    scratch's contents forgotten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = PhiS0 (V1 m) c 0 (Nat.zero_le _) from rfl, PhiS0_zero (V1 m) c 0 _ rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers at entry and put back at what the write-backs
    leave at exit; the generator register and the scoped rest go into the region's invariant and come back out, the
    scratch's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiS1 (V2 m) c 0 (Nat.zero_le _) from rfl, PhiS1_zero (V2 m) c 0 _ rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub ops0_fresh (W0 m)),
    .region (reg0 m),
    .region (reg1 m),
    .host (hseg hostOps2 hostOps2_sub ops2_fresh (W3 m)) ]
theorem main_run (c : Dev nD) : main (F := F) c = Pipeline.Seg.run (segs m) := (main_chain c).trans (by chain_rfl)

variable (ρ : Dev nD → PrngReg)

set_option backward.isDefEq.respectTransparency.types false in
/-- THE RUN. From any memory with zero counters every weakly fair execution of @main terminates, nothing faulting, and
    every final memory holds every unscoped buffer at the fold's last contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (StableHlo.after hostOps2 (W3 m c)) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## The arguments end as launched -/

theorem not_written0 (b : Ref sig .tc) (V : Valuation τ sig (Elt F)) (hb : b ∉ ([main_cst, main_v0, main_v1, main_cst_0, main_v2, main_v3] : List (Ref sig .tc))) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, Finset.mem_singleton]
    simp only [List.mem_cons, List.not_mem_nil, or_false, not_or] at hb
    obtain ⟨h1, h2, h3, h4, h5, h6⟩ := hb
    exact ⟨StableHlo.devRef_ne_of_ne h1, StableHlo.devRef_ne_of_ne h2, StableHlo.devRef_ne_of_ne h3, StableHlo.devRef_ne_of_ne h4, StableHlo.devRef_ne_of_ne h5, StableHlo.devRef_ne_of_ne h6⟩))

theorem W4_of_arg (c : Dev nD) (b : Ref sig .tc) (hb : b = main_arg0 ∨ b = main_arg1) :
    W4 m c (Proc.devRef .tc b) = m ((c : Thread nD τ).loc b) := by
  have e4 : W4 m c (Proc.devRef .tc b) = W3 m c (Proc.devRef .tc b) :=
    StableHlo.after_of_forall_not_mem (b := Proc.devRef .tc b) _ _ (List.forall_iff_forall_mem.mp (by
      rcases hb with rfl | rfl <;>
      · simp only [hostOps2, List.Forall, StableHlo.nullary_writes, StableHlo.unary_writes, StableHlo.binary_writes, Finset.mem_singleton]
        repeat' apply And.intro
        all_goals exact StableHlo.devRef_ne_of_ne (by decide)))
  have e3 : W3 m c (Proc.devRef .tc b) = W2 m c (Proc.devRef .tc b) := W3_of_ne m c b (by rcases hb with rfl | rfl <;> decide)
  have e2 : W2 m c (Proc.devRef .tc b) = W1 m c (Proc.devRef .tc b) := W2_of_ne m c b (by rcases hb with rfl | rfl <;> decide)
  have e1 : W1 m c (Proc.devRef .tc b) = W0 m c (Proc.devRef .tc b) := not_written0 b _ (by rcases hb with rfl | rfl <;> decide)
  exact e4.trans (e3.trans (e2.trans (e1.trans rfl)))

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_of_arg m c main_arg0 (.inl rfl)),
     (h c _ (mem_uc main_arg1 (by decide))).trans (W4_of_arg m c main_arg1 (.inr rfl))⟩) (run m ρ)

end Cert.Kernel.Hand

end
-- ==== Proof.Ideal.Body0.lean ====
/-
  The kernel body of region 0 (one query tile of 512 points against one key tile of 512 points, all four batches),
  run symbolically on whole staging memrefs at any float instance: what it leaves in the running-minimum scratch and,
  at the last key tile, in the output block, as pure functions of what it found.
-/
import proofs.«140770_j50070728737514_1_alg».proof.Proof.Gen.KernelIdeal.Launch
import proofs.«140770_j50070728737514_1_alg».proof.Proof.Gen.KernelIdeal.Skeleton
import proofs.«140770_j50070728737514_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_0 : (![0, 0] : Fin 2 → Nat) = fun _ => 0 := funext fun a => by fin_cases a <;> rfl
theorem hz3_0 : (![0, 0, 0] : Fin 3 → Nat) = fun _ => 0 := funext fun a => by fin_cases a <;> rfl

/-! ## Region 0: the kernel body on any whole memrefs

The body's two conditionals depend on the second grid coordinate only: the first is taken at the first key tile
(where the running minimum in the scratch is reset to +∞), the second at the last key tile (where the square root
of the running minimum is stored into the output block). -/

abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

set_option maxHeartbeats 1000000 in
/-- First key tile (not the last): whatever the scratch held, it ends at the minimum of +∞ and this tile's row minima;
    the output block's buffer is not touched. -/
theorem body0_A (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hc0 : cond0_0 i) (hc1 : ¬cond0_1 i)
    (x0 x1 : Vec F S4x512x3 .f32) (d4 s : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare s
        ∗ (iprop(owns (c : Thread nD τ) arg2 fullShare x0 ∗ owns (c : Thread nD τ) arg3 fullShare x1 ∗ owns (c : Thread nD τ) arg4 fullShare d4 ∗ owns (c : Thread nD τ) arg5 fullShare (k0_pay2 x0 x1 (k0_pay1 (F := F)))) -∗ K ⟨⟩))
      ⊢ wp frame (wpE (defs₀ (F := F)) Variants.none c none) E (cc0__min_dist_kernel i arg2 harg2 arg3 harg3 arg4 harg4 arg5 harg5) K := by
  simp only [cc0__min_dist_kernel_eq_skeleton]; unfold cc0__min_dist_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  rw [View.read_writes_eq_canon _ _ _ (fun y => ⟨_, List.mem_cons_self, View.mem_set_unit_zero hz2_0 inb_S4x512_S4x512_0_0 y⟩), View.canon_cons_unit_zero hz2_0]
  sl_unfold_run_names
  simp only [View.readAt_eq_ld, harg2.read_unread, harg3.read_unread, View.ld_unit_zero (S := S4x512x3) hz3_0, View.readCov_unit_zero (S := S4x512) _ hz2_0]

set_option maxHeartbeats 1000000 in
/-- A middle key tile: the scratch at `s` ends at the minimum of `s` and this tile's row minima; the output block's
    buffer is not touched. -/
theorem body0_B (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hc0 : ¬cond0_0 i) (hc1 : ¬cond0_1 i)
    (x0 x1 : Vec F S4x512x3 .f32) (d4 s : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare s
        ∗ (iprop(owns (c : Thread nD τ) arg2 fullShare x0 ∗ owns (c : Thread nD τ) arg3 fullShare x1 ∗ owns (c : Thread nD τ) arg4 fullShare d4 ∗ owns (c : Thread nD τ) arg5 fullShare (k0_pay2 x0 x1 s)) -∗ K ⟨⟩))
      ⊢ wp frame (wpE (defs₀ (F := F)) Variants.none c none) E (cc0__min_dist_kernel i arg2 harg2 arg3 harg3 arg4 harg4 arg5 harg5) K := by
  simp only [cc0__min_dist_kernel_eq_skeleton]; unfold cc0__min_dist_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  rw [View.read_writes_eq_canon _ _ _ (fun y => ⟨_, List.mem_cons_self, View.mem_set_unit_zero hz2_0 inb_S4x512_S4x512_0_0 y⟩), View.canon_cons_unit_zero hz2_0]
  sl_unfold_run_names
  simp only [View.readAt_eq_ld, harg2.read_unread, harg3.read_unread, harg5.read_unread, View.ld_unit_zero (S := S4x512x3) hz3_0, View.ld_unit_zero (S := S4x512) hz2_0]

set_option maxHeartbeats 1000000 in
/-- The last key tile: the scratch at `s` ends at the minimum of `s` and this tile's row minima, and the output block's
    buffer, whatever it held, at the square root of that. -/
theorem body0_C (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hc0 : ¬cond0_0 i) (hc1 : cond0_1 i)
    (x0 x1 : Vec F S4x512x3 .f32) (d4 s : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare s
        ∗ (iprop(owns (c : Thread nD τ) arg2 fullShare x0 ∗ owns (c : Thread nD τ) arg3 fullShare x1 ∗ owns (c : Thread nD τ) arg4 fullShare (k0_pay3 (k0_pay2 x0 x1 s)) ∗ owns (c : Thread nD τ) arg5 fullShare (k0_pay2 x0 x1 s)) -∗ K ⟨⟩))
      ⊢ wp frame (wpE (defs₀ (F := F)) Variants.none c none) E (cc0__min_dist_kernel i arg2 harg2 arg3 harg3 arg4 harg4 arg5 harg5) K := by
  simp only [cc0__min_dist_kernel_eq_skeleton]; unfold cc0__min_dist_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    rw [View.read_writes_eq_canon _ _ _ (fun y => ⟨_, List.mem_cons_self, View.mem_set_unit_zero hz2_0 inb_S4x512_S4x512_0_0 y⟩), View.canon_cons_unit_zero hz2_0]
    sl_unfold_run_names
    simp only [View.readAt_eq_ld, harg2.read_unread, harg3.read_unread, harg5.read_unread, View.ld_unit_zero (S := S4x512x3) hz3_0, View.ld_unit_zero (S := S4x512) hz2_0, View.readCov_unit_zero (S := S4x512) _ hz2_0]
  iexists _; isplitr
  swap; · iexact H5
  ipureintro
  sl_unfold_run_names
  rw [View.read_writes_eq_canon _ _ _ (fun y => ⟨_, List.mem_cons_self, View.mem_set_unit_zero hz2_0 inb_S4x512_S4x512_0_0 y⟩), View.canon_cons_unit_zero hz2_0]
  sl_unfold_run_names
  simp only [View.readAt_eq_ld, harg2.read_unread, harg3.read_unread, harg5.read_unread, View.ld_unit_zero (S := S4x512x3) hz3_0, View.ld_unit_zero (S := S4x512) hz2_0]

end Cert.KernelIdeal.Hand

end
-- ==== Proof.Ideal.Region0.lean ====
/-
  Region 0 as one pipeline: each window's block at a grid point, the running minimum the scratch carries from one key
  tile to the next, the region's invariant (the scratch tracked at that running minimum), the pipeline's proof data and
  the body obligation at every one of the 256 grid points, at any float instance.
-/
import proofs.«140770_j50070728737514_1_alg».proof.Proof.Ideal.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's staging buffer holds its block at every point, fetched there or not (its block index moves
    only with the first grid coordinate). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The key window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The conditionals over the grid: point `t` is key tile `t mod 16` of query tile `t / 16` -/

theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)
theorem liveAt0_0 : ∀ t : Fin cfg0.N, cfg0.idle 0 (grid0.coords t) = false := by decide +kernel
theorem liveAt0_1 : ∀ t : Fin cfg0.N, cfg0.idle 1 (grid0.coords t) = false := by decide +kernel
/-- The output window is idle (nothing stored, nothing written back) except at the last key tile. -/
theorem idleAt0_2 : ∀ t : Fin cfg0.N, ¬t.val % 16 = 15 → cfg0.idle 2 (grid0.coords t) = true := by decide +kernel
theorem noFlush0_2 : ∀ t : Fin cfg0.N, ¬t.val % 16 = 15 → (cfg0.win 2).flush t = false := by decide +kernel
theorem liveAt0_2 : ∀ t : Fin cfg0.N, t.val % 16 = 15 → cfg0.idle 2 (grid0.coords t) = false := by decide +kernel

/-- Each window's current staging memref at point `t`, as the pipeline passes it to the body. -/
abbrev ms0_0 (t : Fin cfg0.N) : Memref sig .tc .vmem S4x512x3 .f32 := win0_0.stage (cfg0.slots t 0)
abbrev ms0_1 (t : Fin cfg0.N) : Memref sig .tc .vmem S4x512x3 .f32 := win0_1.stage (cfg0.slots t 1)
abbrev ms0_2 (t : Fin cfg0.N) : Memref sig .tc .vmem S4x512 .f32 := win0_2.stage (cfg0.slots t 2)

/-! ## The running minimum, point by point -/

/-- What the scratch holds after the body at position `n`: at a first key tile the tile's row minima against +∞,
    elsewhere against what the point before left. -/
def acc0 (c : Dev nD) : (n : ℕ) → n < cfg0.N → Vec F S4x512 .f32
  | 0, hn => k0_pay2 (iblk0 V c 0 ⟨0, hn⟩) (iblk0 V c 1 ⟨0, hn⟩) (k0_pay1 (F := F))
  | n + 1, hn =>
    if (n + 1) % 16 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

theorem acc0_first (c : Dev nD) (t : Fin cfg0.N) (h0 : t.val % 16 = 0) :
    acc0 V c t.val t.isLt = k0_pay2 (iblk0 V c 0 t) (iblk0 V c 1 t) (k0_pay1 (F := F)) := by
  obtain ⟨n, hn⟩ := t
  cases n with
  | zero => rfl
  | succ n => exact if_pos h0

theorem acc0_next (c : Dev nD) (t : Fin cfg0.N) (h0 : ¬t.val % 16 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact if_neg h0

/-! ## The region's invariant: the scoped buffers no window stages, the scratch among them tracked -/

/-- The scoped buffers that are neither a staging buffer of this region nor its scratch, each at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_split (c : Dev nD) : (Pipeline.ΦA spec0 c : sProp 𝕄)
    ⊢ iprop((∃ d, owns (c : Thread nD τ) (Memref.whole cc0_scratch0) fullShare d) ∗ rest0 (F := F) c ∗ ∃ r, prngReg c r) := by
  unfold Pipeline.ΦA rest0; rw [scopedRest0_eq]; simp only [owns_whole]
  iintro ⟨⟨Hs, H1, H2, H3, H4, H5, H6, H7⟩, Hg⟩
  isplitl [Hs]; · iexact Hs
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg

theorem PhiA0_join (c : Dev nD) : iprop((∃ d, owns (c : Thread nD τ) (Memref.whole cc0_scratch0) fullShare d) ∗ rest0 (F := F) c ∗ ∃ r, prngReg c r)
    ⊢ (Pipeline.ΦA spec0 c : sProp 𝕄) := by
  unfold Pipeline.ΦA rest0; rw [scopedRest0_eq]; simp only [owns_whole]
  iintro ⟨Hs, ⟨H1, H2, H3, H4, H5, H6, H7⟩, Hg⟩
  isplitl [Hs H1 H2 H3 H4 H5 H6 H7]
  · isplitl [Hs]; · iexact Hs
    isplitl [H1]; · iexact H1
    isplitl [H2]; · iexact H2
    isplitl [H3]; · iexact H3
    isplitl [H4]; · iexact H4
    isplitl [H5]; · iexact H5
    isplitl [H6]; · iexact H6
    iexact H7
  iexact Hg

/-- Before position `n`: before the first point every scoped buffer at anything; afterwards the scratch at the running
    minimum the point before left. -/
def PhiS0 (c : Dev nD) : (n : ℕ) → n ≤ cfg0.N → sProp 𝕄
  | 0, _ => Pipeline.ΦA spec0 c
  | n + 1, hn => iprop(owns (c : Thread nD τ) (Memref.whole cc0_scratch0) fullShare (acc0 V c n hn) ∗ rest0 (F := F) c ∗ ∃ r, prngReg c r)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) (Memref.whole cc0_scratch0) fullShare (acc0 V c n hn) ∗ rest0 (F := F) c ∗ ∃ r, prngReg c r) := rfl
theorem PhiS0_pos (c : Dev nD) (n : ℕ) (h : n ≤ cfg0.N) (hz : n ≠ 0) :
    PhiS0 V c n h = iprop(owns (c : Thread nD τ) (Memref.whole cc0_scratch0) fullShare (acc0 V c (n - 1) (by omega)) ∗ rest0 (F := F) c ∗ ∃ r, prngReg c r) := by
  cases n with
  | zero => exact absurd rfl hz
  | succ n => rfl

/-! ## The pipeline's proof data -/

/-- The arrays as the region finds them; after the body each input's buffer at its block and the output's at the
    square root of the running minimum (consulted at the last key tile only: elsewhere the window is idle); the
    invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the point's place among the sixteen key tiles says
    which of the three runs applies; the invariant hands the body the scratch at what the point before left (at
    anything before the first point) and takes it back at this point's running minimum; the output's buffer is handed
    back untouched except at the last key tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  have hN : t.val < 256 := lt_of_lt_of_eq t.isLt (show cfg0.N = 256 from N_0)
  by_cases h1 : t.val % 16 = 15
  · have h0 : ¬t.val % 16 = 0 := by omega
    have hz : t.val ≠ 0 := by omega
    rw [show (dat0 V c).leavesExact 2 t = owns (c : Thread nD τ) (ms0_2 t) fullShare ((dat0 V c).after 2 t) from by
      unfold Dat.leavesExact; rw [liveAt0_2 t h1], after0_2]
    rw [acc0_next V c t h0, PhiS0_castSucc V c t, PhiS0_pos V c _ _ hz]
    iintro ⟨⟨HS, Hr, Hg⟩, Ho, ⟨%d0, H0⟩, ⟨%d1, H1⟩, ⟨%d2, H2⟩⟩
    iapply (body0_C c (grid0.coords t) _ _ _ _ _ _ _ _ (fun h => h0 ((hcond0_0 t).mp h)) ((hcond0_1 t).mpr h1) (iblk0 V c 0 t) (iblk0 V c 1 t) _ _ Set.univ _)
    isplitl [H0]; · iexact H0
    isplitl [H1]; · iexact H1
    isplitl [H2]; · iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · rw [Dat.leavesExact_idle (dat0 V c) 2 t (idleAt0_2 t h1) (noFlush0_2 t h1)]
    by_cases h0 : t.val % 16 = 0
    · rw [acc0_first V c t h0]
      by_cases hz : t.val = 0
      · rw [PhiS0_castSucc V c t, PhiS0_zero V c _ _ hz]
        iintro ⟨HΦ, Ho, ⟨%d0, H0⟩, ⟨%d1, H1⟩, ⟨%d2, H2⟩⟩
        ihave HΦ' := (PhiA0_split (F := F) c) $$ HΦ
        icases HΦ' with ⟨⟨%s, HS⟩, Hr, Hg⟩
        iapply (body0_A c (grid0.coords t) _ _ _ _ _ _ _ _ ((hcond0_0 t).mpr h0) (fun h => h1 ((hcond0_1 t).mp h)) (iblk0 V c 0 t) (iblk0 V c 1 t) _ _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
      · rw [PhiS0_castSucc V c t, PhiS0_pos V c _ _ hz]
        iintro ⟨⟨HS, Hr, Hg⟩, Ho, ⟨%d0, H0⟩, ⟨%d1, H1⟩, ⟨%d2, H2⟩⟩
        iapply (body0_A c (grid0.coords t) _ _ _ _ _ _ _ _ ((hcond0_0 t).mpr h0) (fun h => h1 ((hcond0_1 t).mp h)) (iblk0 V c 0 t) (iblk0 V c 1 t) _ _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
    · have hz : t.val ≠ 0 := fun h => h0 (by rw [h])
      rw [acc0_next V c t h0, PhiS0_castSucc V c t, PhiS0_pos V c _ _ hz]
      iintro ⟨⟨HS, Hr, Hg⟩, Ho, ⟨%d0, H0⟩, ⟨%d1, H1⟩, ⟨%d2, H2⟩⟩
      iapply (body0_B c (grid0.coords t) _ _ _ _ _ _ _ _ (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class's back: what the scratch holds is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  iintro ⟨HS, Hr, Hg⟩
  iapply (PhiA0_join (F := F) c)
  isplitl [HS]; · iexists _; iexact HS
  isplitl [Hr]; · iexact Hr
  iexact Hg

theorem hout0 (c : Dev nD) : (dat0 V c).Φ (Fin.last cfg0.N) ⊢ Pipeline.ΦA spec0 c :=
  Phi_out0 V c _ (by rw [Fin.val_last]; have : cfg0.N = 256 := N_0; omega)

end

end Cert.KernelIdeal.Hand

end
-- ==== Proof.Ideal.Body1.lean ====
/-
  The kernel body of region 1 (one query tile of 512 points against one key tile of 512 points, all four batches),
  run symbolically on whole staging memrefs at any float instance: what it leaves in the running-minimum scratch and,
  at the last key tile, in the output block, as pure functions of what it found.
-/
import proofs.«140770_j50070728737514_1_alg».proof.Proof.Gen.KernelIdeal.Launch
import proofs.«140770_j50070728737514_1_alg».proof.Proof.Gen.KernelIdeal.Skeleton
import proofs.«140770_j50070728737514_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_1 : (![0, 0] : Fin 2 → Nat) = fun _ => 0 := funext fun a => by fin_cases a <;> rfl
theorem hz3_1 : (![0, 0, 0] : Fin 3 → Nat) = fun _ => 0 := funext fun a => by fin_cases a <;> rfl

/-! ## Region 1: the kernel body on any whole memrefs

The body's two conditionals depend on the second grid coordinate only: the first is taken at the first key tile
(where the running minimum in the scratch is reset to +∞), the second at the last key tile (where the square root
of the running minimum is stored into the output block). -/

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

set_option maxHeartbeats 1000000 in
/-- First key tile (not the last): whatever the scratch held, it ends at the minimum of +∞ and this tile's row minima;
    the output block's buffer is not touched. -/
theorem body1_A (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hc0 : cond1_0 i) (hc1 : ¬cond1_1 i)
    (x0 x1 : Vec F S4x512x3 .f32) (d4 s : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare s
        ∗ (iprop(owns (c : Thread nD τ) arg2 fullShare x0 ∗ owns (c : Thread nD τ) arg3 fullShare x1 ∗ owns (c : Thread nD τ) arg4 fullShare d4 ∗ owns (c : Thread nD τ) arg5 fullShare (k1_pay2 x0 x1 (k1_pay1 (F := F)))) -∗ K ⟨⟩))
      ⊢ wp frame (wpE (defs₀ (F := F)) Variants.none c none) E (cc1__min_dist_kernel i arg2 harg2 arg3 harg3 arg4 harg4 arg5 harg5) K := by
  simp only [cc1__min_dist_kernel_eq_skeleton]; unfold cc1__min_dist_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  rw [View.read_writes_eq_canon _ _ _ (fun y => ⟨_, List.mem_cons_self, View.mem_set_unit_zero hz2_1 inb_S4x512_S4x512_0_0 y⟩), View.canon_cons_unit_zero hz2_1]
  sl_unfold_run_names
  simp only [View.readAt_eq_ld, harg2.read_unread, harg3.read_unread, View.ld_unit_zero (S := S4x512x3) hz3_1, View.readCov_unit_zero (S := S4x512) _ hz2_1]

set_option maxHeartbeats 1000000 in
/-- A middle key tile: the scratch at `s` ends at the minimum of `s` and this tile's row minima; the output block's
    buffer is not touched. -/
theorem body1_B (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hc0 : ¬cond1_0 i) (hc1 : ¬cond1_1 i)
    (x0 x1 : Vec F S4x512x3 .f32) (d4 s : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare s
        ∗ (iprop(owns (c : Thread nD τ) arg2 fullShare x0 ∗ owns (c : Thread nD τ) arg3 fullShare x1 ∗ owns (c : Thread nD τ) arg4 fullShare d4 ∗ owns (c : Thread nD τ) arg5 fullShare (k1_pay2 x0 x1 s)) -∗ K ⟨⟩))
      ⊢ wp frame (wpE (defs₀ (F := F)) Variants.none c none) E (cc1__min_dist_kernel i arg2 harg2 arg3 harg3 arg4 harg4 arg5 harg5) K := by
  simp only [cc1__min_dist_kernel_eq_skeleton]; unfold cc1__min_dist_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr; · ipureintro; exact harg4.read_unread _
    iexact H4
  iexists _; isplitr
  swap; · iexact H5
  ipureintro
  rw [View.read_writes_eq_canon _ _ _ (fun y => ⟨_, List.mem_cons_self, View.mem_set_unit_zero hz2_1 inb_S4x512_S4x512_0_0 y⟩), View.canon_cons_unit_zero hz2_1]
  sl_unfold_run_names
  simp only [View.readAt_eq_ld, harg2.read_unread, harg3.read_unread, harg5.read_unread, View.ld_unit_zero (S := S4x512x3) hz3_1, View.ld_unit_zero (S := S4x512) hz2_1]

set_option maxHeartbeats 1000000 in
/-- The last key tile: the scratch at `s` ends at the minimum of `s` and this tile's row minima, and the output block's
    buffer, whatever it held, at the square root of that. -/
theorem body1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole)
    (hc0 : ¬cond1_0 i) (hc1 : cond1_1 i)
    (x0 x1 : Vec F S4x512x3 .f32) (d4 s : Vec F S4x512 .f32) (E : Set ℕ) (K : PUnit → sProp 𝕄) :
    iprop(owns (c : Thread nD τ) arg2 fullShare x0 ∗ owns (c : Thread nD τ) arg3 fullShare x1 ∗ owns (c : Thread nD τ) arg4 fullShare d4 ∗ owns (c : Thread nD τ) arg5 fullShare s
        ∗ (iprop(owns (c : Thread nD τ) arg2 fullShare x0 ∗ owns (c : Thread nD τ) arg3 fullShare x1 ∗ owns (c : Thread nD τ) arg4 fullShare (k1_pay3 (k1_pay2 x0 x1 s)) ∗ owns (c : Thread nD τ) arg5 fullShare (k1_pay2 x0 x1 s)) -∗ K ⟨⟩))
      ⊢ wp frame (wpE (defs₀ (F := F)) Variants.none c none) E (cc1__min_dist_kernel i arg2 harg2 arg3 harg3 arg4 harg4 arg5 harg5) K := by
  simp only [cc1__min_dist_kernel_eq_skeleton]; unfold cc1__min_dist_kernel_skel
  unfold owns
  iintro ⟨⟨%f0, %hf0, H0⟩, ⟨%f1, %hf1, H1⟩, ⟨%f4, %hf4, H4⟩, ⟨%f5, %hf5, H5⟩, Hk⟩
  obtain rfl := harg2.eq_unread hf0; obtain rfl := harg3.eq_unread hf1; obtain rfl := harg4.eq_unread hf4; obtain rfl := harg5.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    rw [View.read_writes_eq_canon _ _ _ (fun y => ⟨_, List.mem_cons_self, View.mem_set_unit_zero hz2_1 inb_S4x512_S4x512_0_0 y⟩), View.canon_cons_unit_zero hz2_1]
    sl_unfold_run_names
    simp only [View.readAt_eq_ld, harg2.read_unread, harg3.read_unread, harg5.read_unread, View.ld_unit_zero (S := S4x512x3) hz3_1, View.ld_unit_zero (S := S4x512) hz2_1, View.readCov_unit_zero (S := S4x512) _ hz2_1]
  iexists _; isplitr
  swap; · iexact H5
  ipureintro
  sl_unfold_run_names
  rw [View.read_writes_eq_canon _ _ _ (fun y => ⟨_, List.mem_cons_self, View.mem_set_unit_zero hz2_1 inb_S4x512_S4x512_0_0 y⟩), View.canon_cons_unit_zero hz2_1]
  sl_unfold_run_names
  simp only [View.readAt_eq_ld, harg2.read_unread, harg3.read_unread, harg5.read_unread, View.ld_unit_zero (S := S4x512x3) hz3_1, View.ld_unit_zero (S := S4x512) hz2_1]

end Cert.KernelIdeal.Hand

end
-- ==== Proof.Ideal.Region1.lean ====
/-
  Region 1 as one pipeline: each window's block at a grid point, the running minimum the scratch carries from one key
  tile to the next, the region's invariant (the scratch tracked at that running minimum), the pipeline's proof data and
  the body obligation at every one of the 256 grid points, at any float instance.
-/
import proofs.«140770_j50070728737514_1_alg».proof.Proof.Ideal.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point, fetched there or not (its block index moves
    only with the first grid coordinate). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The conditionals over the grid: point `t` is key tile `t mod 16` of query tile `t / 16` -/

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)
theorem liveAt1_0 : ∀ t : Fin cfg1.N, cfg1.idle 0 (grid1.coords t) = false := by decide +kernel
theorem liveAt1_1 : ∀ t : Fin cfg1.N, cfg1.idle 1 (grid1.coords t) = false := by decide +kernel
/-- The output window is idle (nothing stored, nothing written back) except at the last key tile. -/
theorem idleAt1_2 : ∀ t : Fin cfg1.N, ¬t.val % 16 = 15 → cfg1.idle 2 (grid1.coords t) = true := by decide +kernel
theorem noFlush1_2 : ∀ t : Fin cfg1.N, ¬t.val % 16 = 15 → (cfg1.win 2).flush t = false := by decide +kernel
theorem liveAt1_2 : ∀ t : Fin cfg1.N, t.val % 16 = 15 → cfg1.idle 2 (grid1.coords t) = false := by decide +kernel

/-- Each window's current staging memref at point `t`, as the pipeline passes it to the body. -/
abbrev ms1_0 (t : Fin cfg1.N) : Memref sig .tc .vmem S4x512x3 .f32 := win1_0.stage (cfg1.slots t 0)
abbrev ms1_1 (t : Fin cfg1.N) : Memref sig .tc .vmem S4x512x3 .f32 := win1_1.stage (cfg1.slots t 1)
abbrev ms1_2 (t : Fin cfg1.N) : Memref sig .tc .vmem S4x512 .f32 := win1_2.stage (cfg1.slots t 2)

/-! ## The running minimum, point by point -/

/-- What the scratch holds after the body at position `n`: at a first key tile the tile's row minima against +∞,
    elsewhere against what the point before left. -/
def acc1 (c : Dev nD) : (n : ℕ) → n < cfg1.N → Vec F S4x512 .f32
  | 0, hn => k1_pay2 (iblk1 V c 0 ⟨0, hn⟩) (iblk1 V c 1 ⟨0, hn⟩) (k1_pay1 (F := F))
  | n + 1, hn =>
    if (n + 1) % 16 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_first (c : Dev nD) (t : Fin cfg1.N) (h0 : t.val % 16 = 0) :
    acc1 V c t.val t.isLt = k1_pay2 (iblk1 V c 0 t) (iblk1 V c 1 t) (k1_pay1 (F := F)) := by
  obtain ⟨n, hn⟩ := t
  cases n with
  | zero => rfl
  | succ n => exact if_pos h0

theorem acc1_next (c : Dev nD) (t : Fin cfg1.N) (h0 : ¬t.val % 16 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact if_neg h0

/-! ## The region's invariant: the scoped buffers no window stages, the scratch among them tracked -/

/-- The scoped buffers that are neither a staging buffer of this region nor its scratch, each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

theorem PhiA1_split (c : Dev nD) : (Pipeline.ΦA spec1 c : sProp 𝕄)
    ⊢ iprop((∃ d, owns (c : Thread nD τ) (Memref.whole cc1_scratch0) fullShare d) ∗ rest1 (F := F) c ∗ ∃ r, prngReg c r) := by
  unfold Pipeline.ΦA rest1; rw [scopedRest1_eq]; simp only [owns_whole]
  iintro ⟨⟨H1, H2, H3, H4, H5, H6, H7, Hs⟩, Hg⟩
  isplitl [Hs]; · iexact Hs
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg

theorem PhiA1_join (c : Dev nD) : iprop((∃ d, owns (c : Thread nD τ) (Memref.whole cc1_scratch0) fullShare d) ∗ rest1 (F := F) c ∗ ∃ r, prngReg c r)
    ⊢ (Pipeline.ΦA spec1 c : sProp 𝕄) := by
  unfold Pipeline.ΦA rest1; rw [scopedRest1_eq]; simp only [owns_whole]
  iintro ⟨Hs, ⟨H1, H2, H3, H4, H5, H6, H7⟩, Hg⟩
  isplitl [Hs H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact Hs
  iexact Hg

/-- Before position `n`: before the first point every scoped buffer at anything; afterwards the scratch at the running
    minimum the point before left. -/
def PhiS1 (c : Dev nD) : (n : ℕ) → n ≤ cfg1.N → sProp 𝕄
  | 0, _ => Pipeline.ΦA spec1 c
  | n + 1, hn => iprop(owns (c : Thread nD τ) (Memref.whole cc1_scratch0) fullShare (acc1 V c n hn) ∗ rest1 (F := F) c ∗ ∃ r, prngReg c r)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) (Memref.whole cc1_scratch0) fullShare (acc1 V c n hn) ∗ rest1 (F := F) c ∗ ∃ r, prngReg c r) := rfl
theorem PhiS1_pos (c : Dev nD) (n : ℕ) (h : n ≤ cfg1.N) (hz : n ≠ 0) :
    PhiS1 V c n h = iprop(owns (c : Thread nD τ) (Memref.whole cc1_scratch0) fullShare (acc1 V c (n - 1) (by omega)) ∗ rest1 (F := F) c ∗ ∃ r, prngReg c r) := by
  cases n with
  | zero => exact absurd rfl hz
  | succ n => rfl

/-! ## The pipeline's proof data -/

/-- The arrays as the region finds them; after the body each input's buffer at its block and the output's at the
    square root of the running minimum (consulted at the last key tile only: elsewhere the window is idle); the
    invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point's place among the sixteen key tiles says
    which of the three runs applies; the invariant hands the body the scratch at what the point before left (at
    anything before the first point) and takes it back at this point's running minimum; the output's buffer is handed
    back untouched except at the last key tile. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  have hN : t.val < 256 := lt_of_lt_of_eq t.isLt (show cfg1.N = 256 from N_1)
  by_cases h1 : t.val % 16 = 15
  · have h0 : ¬t.val % 16 = 0 := by omega
    have hz : t.val ≠ 0 := by omega
    rw [show (dat1 V c).leavesExact 2 t = owns (c : Thread nD τ) (ms1_2 t) fullShare ((dat1 V c).after 2 t) from by
      unfold Dat.leavesExact; rw [liveAt1_2 t h1], after1_2]
    rw [acc1_next V c t h0, PhiS1_castSucc V c t, PhiS1_pos V c _ _ hz]
    iintro ⟨⟨HS, Hr, Hg⟩, Ho, ⟨%d0, H0⟩, ⟨%d1, H1⟩, ⟨%d2, H2⟩⟩
    iapply (body1_C c (grid1.coords t) _ _ _ _ _ _ _ _ (fun h => h0 ((hcond1_0 t).mp h)) ((hcond1_1 t).mpr h1) (iblk1 V c 0 t) (iblk1 V c 1 t) _ _ Set.univ _)
    isplitl [H0]; · iexact H0
    isplitl [H1]; · iexact H1
    isplitl [H2]; · iexact H2
    isplitl [HS]; · iexact HS
    iintro ⟨H0, H1, H2, HS⟩
    isplitl [HS Hr Hg]
    · isplitl [HS]; · iexact HS
      isplitl [Hr]; · iexact Hr
      iexact Hg
    isplitl [Ho]; · iexact Ho
    isplitl [H0]; · iexact H0
    isplitl [H1]; · iexact H1
    iexact H2
  · rw [Dat.leavesExact_idle (dat1 V c) 2 t (idleAt1_2 t h1) (noFlush1_2 t h1)]
    by_cases h0 : t.val % 16 = 0
    · rw [acc1_first V c t h0]
      by_cases hz : t.val = 0
      · rw [PhiS1_castSucc V c t, PhiS1_zero V c _ _ hz]
        iintro ⟨HΦ, Ho, ⟨%d0, H0⟩, ⟨%d1, H1⟩, ⟨%d2, H2⟩⟩
        ihave HΦ' := (PhiA1_split (F := F) c) $$ HΦ
        icases HΦ' with ⟨⟨%s, HS⟩, Hr, Hg⟩
        iapply (body1_A c (grid1.coords t) _ _ _ _ _ _ _ _ ((hcond1_0 t).mpr h0) (fun h => h1 ((hcond1_1 t).mp h)) (iblk1 V c 0 t) (iblk1 V c 1 t) _ _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨HS, Hr, Hg⟩, Ho, ⟨%d0, H0⟩, ⟨%d1, H1⟩, ⟨%d2, H2⟩⟩
        iapply (body1_A c (grid1.coords t) _ _ _ _ _ _ _ _ ((hcond1_0 t).mpr h0) (fun h => h1 ((hcond1_1 t).mp h)) (iblk1 V c 0 t) (iblk1 V c 1 t) _ _ Set.univ _)
        isplitl [H0]; · iexact H0
        isplitl [H1]; · iexact H1
        isplitl [H2]; · iexact H2
        isplitl [HS]; · iexact HS
        iintro ⟨H0, H1, H2, HS⟩
        isplitl [HS Hr Hg]
        · isplitl [HS]; · iexact HS
          isplitl [Hr]; · iexact Hr
          iexact Hg
        isplitl [Ho]; · iexact Ho
        isplitl [H0]; · iexact H0
        isplitl [H1]; · iexact H1
        iexists _; iexact H2
    · have hz : t.val ≠ 0 := fun h => h0 (by rw [h])
      rw [acc1_next V c t h0, PhiS1_castSucc V c t, PhiS1_pos V c _ _ hz]
      iintro ⟨⟨HS, Hr, Hg⟩, Ho, ⟨%d0, H0⟩, ⟨%d1, H1⟩, ⟨%d2, H2⟩⟩
      iapply (body1_B c (grid1.coords t) _ _ _ _ _ _ _ _ (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS]; · iexact HS
        isplitl [Hr]; · iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class's back: what the scratch holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨HS, Hr, Hg⟩
  iapply (PhiA1_join (F := F) c)
  isplitl [HS]; · iexists _; iexact HS
  isplitl [Hr]; · iexact Hr
  iexact Hg

theorem hout1 (c : Dev nD) : (dat1 V c).Φ (Fin.last cfg1.N) ⊢ Pipeline.ΦA spec1 c :=
  Phi_out1 V c _ (by rw [Fin.val_last]; have : cfg1.N = 256 := N_1; omega)

end

end Cert.KernelIdeal.Hand

end
-- ==== Proof.Ideal.Run.lean ====
/-
  @main as four segments — the host stretch dividing both point sets by the scale, the two regions (query = first set /
  keys = second set, then the two swapped), and the host stretch taking the two row means, their half-sum and the batch
  mean — run from the launch memory: the contents of every unscoped buffer at each boundary as a fold, the two regions'
  records over one thread state, and the run's last memory read at every unscoped buffer. The frame claim is that run read
  at the two argument arrays, which no segment writes.
-/
import proofs.«140770_j50070728737514_1_alg».proof.Proof.Ideal.Region0
import proofs.«140770_j50070728737514_1_alg».proof.Proof.Ideal.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary of @main: a fold from the launch memory -/

/-- Core `c`'s buffers at launch. -/
abbrev W0 (c : Dev nD) : Valuation τ sig (Elt F) := fun b => m (c, b)
/-- After the first host stretch (the two divisions by the scale): region 0's entry. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit (it is entered where region 0 is left). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host stretch (the two means, their half-sum, the mean over the batch). -/
abbrev W4 (c : Dev nD) : Valuation τ sig (Elt F) := StableHlo.after hostOps2 (W3 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state "every unscoped buffer at the boundary's contents, the generator register at some
    state, nothing owed": its arrays are split out of the unscoped buffers at entry and put back at what the write-backs
    leave at exit; the generator register and the scoped rest go into the region's invariant and come back out, the
    scratch's contents forgotten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = PhiS0 (V1 m) c 0 (Nat.zero_le _) from rfl, PhiS0_zero (V1 m) c 0 _ rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers at entry and put back at what the write-backs
    leave at exit; the generator register and the scoped rest go into the region's invariant and come back out, the
    scratch's contents forgotten. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiS1 (V2 m) c 0 (Nat.zero_le _) from rfl, PhiS1_zero (V2 m) c 0 _ rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub ops0_fresh (W0 m)),
    .region (reg0 m),
    .region (reg1 m),
    .host (hseg hostOps2 hostOps2_sub ops2_fresh (W3 m)) ]
theorem main_run (c : Dev nD) : main (F := F) c = Pipeline.Seg.run (segs m) := (main_chain c).trans (by chain_rfl)

variable (ρ : Dev nD → PrngReg)

set_option backward.isDefEq.respectTransparency.types false in
/-- THE RUN. From any memory with zero counters every weakly fair execution of @main terminates, nothing faulting, and
    every final memory holds every unscoped buffer at the fold's last contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show (iprop(StableHlo.held (c : Thread nD τ) (Pipeline.ucRefs τ sig) (StableHlo.after hostOps2 (W3 m c)) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-! ## The arguments end as launched -/

theorem not_written0 (b : Ref sig .tc) (V : Valuation τ sig (Elt F)) (hb : b ∉ ([main_cst, main_v0, main_v1, main_cst_0, main_v2, main_v3] : List (Ref sig .tc))) :
    StableHlo.after hostOps0 V (Proc.devRef .tc b) = V (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, Finset.mem_singleton]
    simp only [List.mem_cons, List.not_mem_nil, or_false, not_or] at hb
    obtain ⟨h1, h2, h3, h4, h5, h6⟩ := hb
    exact ⟨StableHlo.devRef_ne_of_ne h1, StableHlo.devRef_ne_of_ne h2, StableHlo.devRef_ne_of_ne h3, StableHlo.devRef_ne_of_ne h4, StableHlo.devRef_ne_of_ne h5, StableHlo.devRef_ne_of_ne h6⟩))

theorem W4_of_arg (c : Dev nD) (b : Ref sig .tc) (hb : b = main_arg0 ∨ b = main_arg1) :
    W4 m c (Proc.devRef .tc b) = m ((c : Thread nD τ).loc b) := by
  have e4 : W4 m c (Proc.devRef .tc b) = W3 m c (Proc.devRef .tc b) :=
    StableHlo.after_of_forall_not_mem (b := Proc.devRef .tc b) _ _ (List.forall_iff_forall_mem.mp (by
      rcases hb with rfl | rfl <;>
      · simp only [hostOps2, List.Forall, StableHlo.nullary_writes, StableHlo.unary_writes, StableHlo.binary_writes, Finset.mem_singleton]
        repeat' apply And.intro
        all_goals exact StableHlo.devRef_ne_of_ne (by decide)))
  have e3 : W3 m c (Proc.devRef .tc b) = W2 m c (Proc.devRef .tc b) := W3_of_ne m c b (by rcases hb with rfl | rfl <;> decide)
  have e2 : W2 m c (Proc.devRef .tc b) = W1 m c (Proc.devRef .tc b) := W2_of_ne m c b (by rcases hb with rfl | rfl <;> decide)
  have e1 : W1 m c (Proc.devRef .tc b) = W0 m c (Proc.devRef .tc b) := not_written0 b _ (by rcases hb with rfl | rfl <;> decide)
  exact e4.trans (e3.trans (e2.trans (e1.trans rfl)))

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_of_arg m c main_arg0 (.inl rfl)),
     (h c _ (mem_uc main_arg1 (by decide))).trans (W4_of_arg m c main_arg1 (.inr rfl))⟩) (run m ρ)

end Cert.KernelIdeal.Hand

end
-- ==== Proof.Spec.lean ====
/-
  The mathematics of the claim, with no program in it.

  For two points p, q of three extended-real coordinates, `dist2 p q` is the squared distance in the expanded form
  ‖p‖² + ‖q‖² − 2·⟨p, q⟩, clamped below at 0. For two sets P, Q of 8192 points per batch, `nearest P Q b n` is the square
  root of the least `dist2` from point n of P to a point of Q. The one-sided Chamfer cost of the reference along its
  last axis is `nearest P Q`; along its middle axis it is `nearest Q P`, because `dist2` is symmetric — by
  commutativity of + and · alone, which hold on all of the extended reals, so no finiteness is used.

  Two order facts carry the kernel's tiling: an infimum over 8192 keys is the infimum, over sixteen tiles, of each
  tile's infimum over its 512 keys; and a running minimum that is reset to +∞ at the first tile of each run of sixteen
  and otherwise taken against the value before it is, at every position, the infimum of the tiles of its run so far.
-/
import Idealize.ShloMosaic.PureOps.Ideal.Laws
import Idealize.ShloMosaic.Lib.ValueIdx

noncomputable section

open scoped BigOperators

namespace Cert.Chamfer

open Idealize.ShloMosaic Idealize.ShloMosaic.ValueIdx

/-- The f32 word of +∞ is the top of the extended reals. -/
theorem ofBits_inf : Ideal.ofBits .f32 0x7F800000#32 = (⊤ : EReal) := by simp [Ideal.ofBits, Ideal.ieee]

/-- ‖p‖² + ‖q‖² − 2·⟨p, q⟩, clamped below at 0 (the literals kept as the words both programs print). -/
def dist2 (p q : Fin 3 → EReal) : EReal :=
  max (((∑ d, p d * p d) + (∑ d, q d * q d)) - Ideal.ofBits .f32 0x40000000#32 * (∑ d, p d * q d)) (Ideal.ofBits .f32 0x00000000#32)

theorem dist2_comm (p q : Fin 3 → EReal) : dist2 p q = dist2 q p := by
  unfold dist2
  rw [add_comm (∑ d, p d * p d), show (∑ d, p d * q d) = ∑ d, q d * p d from Finset.sum_congr rfl fun d _ => mul_comm _ _]

/-- Point `n` of batch `b` of a [4, N, 3] array. -/
def pt {N : ℕ} (P : (⟨3, ![4, N, 3]⟩ : Shape).Idx → EReal) (b : Fin 4) (n : Fin N) : Fin 3 → EReal := fun d => P (ix3 b n d)

/-- The distance from point `n` of `P` to the nearest point of `Q`, in batch `b`. -/
def nearest (P Q : (⟨3, ![4, 8192, 3]⟩ : Shape).Idx → EReal) (b : Fin 4) (n : Fin 8192) : EReal :=
  Ideal.sqrt ((Finset.univ : Finset (Fin 8192)).inf fun m => dist2 (pt P b n) (pt Q b m))

/-- Key `l` of tile `j` among 8192 keys in tiles of 512 (taken modulo 8192 so that it needs no bound on `j`). -/
def key (j : ℕ) (l : Fin 512) : Fin 8192 := ⟨(512 * j + l.val) % 8192, Nat.mod_lt _ (by decide)⟩

theorem key_val (j : ℕ) (hj : j < 16) (l : Fin 512) : (key j l).val = 512 * j + l.val := by
  have := l.isLt
  show (512 * j + l.val) % 8192 = _
  exact Nat.mod_eq_of_lt (by omega)

/-- An infimum over all 8192 keys, taken tile by tile: `s` lists the tiles (each of the sixteen at least once). -/
theorem inf_by_tiles {ι : Type} (s : Finset ι) (tileOf : ι → ℕ) (hlt : ∀ i ∈ s, tileOf i < 16)
    (hsurj : ∀ j, j < 16 → ∃ i ∈ s, tileOf i = j) (g : Fin 8192 → EReal) :
    s.inf (fun i => (Finset.univ : Finset (Fin 512)).inf fun l => g (key (tileOf i) l)) = (Finset.univ : Finset (Fin 8192)).inf g := by
  apply le_antisymm
  · refine Finset.le_inf fun m _ => ?_
    have hm := m.isLt
    obtain ⟨i, hi, hij⟩ := hsurj (m.val / 512) (by omega)
    refine (Finset.inf_le hi).trans ((Finset.inf_le (Finset.mem_univ (⟨m.val % 512, Nat.mod_lt _ (by decide)⟩ : Fin 512))).trans (le_of_eq ?_))
    refine congrArg g (Fin.ext ?_)
    rw [key_val _ (hlt i hi), hij]
    show 512 * (m.val / 512) + m.val % 512 = m.val
    omega
  · exact Finset.le_inf fun i _ => Finset.le_inf fun l _ => Finset.inf_le (Finset.mem_univ _)

/-- The tiles of position `t`'s run of sixteen, up to `t`. -/
def runUpTo {N : ℕ} (t : Fin N) : Finset (Fin N) := Finset.univ.filter fun t' => t'.val / 16 = t.val / 16 ∧ t'.val ≤ t.val

/-- A running minimum reset at the first position of each run of sixteen is the infimum over its run so far. -/
theorem running_min {N : ℕ} (a T : Fin N → EReal)
    (hfirst : ∀ t : Fin N, t.val % 16 = 0 → a t = min ⊤ (T t))
    (hnext : ∀ t : Fin N, ¬t.val % 16 = 0 → a t = min (a ⟨t.val - 1, Nat.lt_of_le_of_lt (Nat.sub_le _ _) t.isLt⟩) (T t)) :
    ∀ (n : ℕ) (hn : n < N), a ⟨n, hn⟩ = (runUpTo (⟨n, hn⟩ : Fin N)).inf T := by
  intro n
  induction n with
  | zero =>
    intro hn
    rw [hfirst ⟨0, hn⟩ rfl, min_eq_right le_top]
    have : runUpTo (⟨0, hn⟩ : Fin N) = {⟨0, hn⟩} := by
      ext t'; simp only [runUpTo, Finset.mem_filter, Finset.mem_univ, true_and, Finset.mem_singleton, Fin.ext_iff]; omega
    rw [this, Finset.inf_singleton]
  | succ n ih =>
    intro hn
    by_cases h0 : (n + 1) % 16 = 0
    · rw [hfirst ⟨n + 1, hn⟩ h0, min_eq_right le_top]
      have : runUpTo (⟨n + 1, hn⟩ : Fin N) = {⟨n + 1, hn⟩} := by
        ext t'; simp only [runUpTo, Finset.mem_filter, Finset.mem_univ, true_and, Finset.mem_singleton, Fin.ext_iff]; omega
      rw [this, Finset.inf_singleton]
    · rw [hnext ⟨n + 1, hn⟩ h0]
      have hset : runUpTo (⟨n + 1, hn⟩ : Fin N) = insert ⟨n + 1, hn⟩ (runUpTo (⟨n, Nat.lt_of_succ_lt hn⟩ : Fin N)) := by
        ext t'; simp only [runUpTo, Finset.mem_filter, Finset.mem_univ, true_and, Finset.mem_insert, Fin.ext_iff]; omega
      rw [hset, Finset.inf_insert, min_comm]
      exact congrArg (fun z => T ⟨n + 1, hn⟩ ⊓ z) (ih (Nat.lt_of_succ_lt hn))

/-- At the last position of a run the run so far is the whole run. -/
theorem runUpTo_last {N : ℕ} (t : Fin N) (h : t.val % 16 = 15) :
    runUpTo t = Finset.univ.filter fun t' : Fin N => t'.val / 16 = t.val / 16 := by
  ext t'; simp only [runUpTo, Finset.mem_filter, Finset.mem_univ, true_and]; omega

end Cert.Chamfer

end
-- ==== Proof.LibRank3UnitAxes.lean ====
/-
  Rank-3 arrays with a unit axis in the middle or at the end, read at an index given by coordinates; any extents.

  * a shape cast that drops or adds a TRAILING unit axis ([a,b,1] ↔ [a,b]) or a MIDDLE unit axis ([a,1,n] ↔ [a,n])
    keeps the row-major position, so it reads the operand at the same coordinates with 0 on the unit axis;
  * a broadcast of [a,b,1] or of [a,1,n] to [a,b,n] repeats the operand along the unit axis;
  * a load through a unit-stride rectangle reads the contents at offset + coordinate on every axis;
  * at the ideal values, a minimum reduction over the LAST axis of an [a,b,n] array — a vector unit's
    `multi_reduction <minimumf>` or the host's `reduce` with a minimum body — is, at (i, j), the fold of `min` from
    the initial value over the n entries (i, j, ·).
-/
import Idealize.ShloMosaic.Lib.Pipeline.Value
import Idealize.ShloMosaic.Lib.ValueIdx
import Idealize.ShloMosaic.PureOps.Ideal.Laws

noncomputable section

namespace Cert.Rank3UnitAxes

open Idealize.ShloMosaic Idealize.ShloMosaic.ValueIdx

variable {α : Type}

/-- [a,b,1] cast to [a,b] reads, at (i, j), the operand at (i, j, 0). -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- [a,b] cast to [a,b,1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- [a,1,n] cast to [a,n] reads, at (i, l), the operand at (i, 0, l). -/
theorem shapeCast_a1n_an_apply {a n : ℕ} (x : (⟨3, ![a, 1, n]⟩ : Shape).Idx → α)
    (h : (⟨3, ![a, 1, n]⟩ : Shape).ShapeCasts ⟨2, ![a, n]⟩) (i : Fin a) (l : Fin n) :
    shapeCast ⟨2, ![a, n]⟩ x h (ix2 i l) = x (ix3 i (0 : Fin 1) l) :=
  shapeCast_apply x h _ _ (by
    rw [Shape.rowMajor_val_three, Shape.rowMajor_val_two]
    show (i.val * 1 + 0) * n + l.val = i.val * n + l.val
    rw [Nat.mul_one, Nat.add_zero])

/-- [a,n] cast to [a,1,n] reads, at (i, u, l), the operand at (i, l). -/
theorem shapeCast_an_a1n_apply {a n : ℕ} (x : (⟨2, ![a, n]⟩ : Shape).Idx → α)
    (h : (⟨2, ![a, n]⟩ : Shape).ShapeCasts ⟨3, ![a, 1, n]⟩) (i : Fin a) (u : Fin 1) (l : Fin n) :
    shapeCast ⟨3, ![a, 1, n]⟩ x h (ix3 i u l) = x (ix2 i l) :=
  shapeCast_apply x h _ _ (by
    have hu : u.val = 0 := by omega
    rw [Shape.rowMajor_val_three, Shape.rowMajor_val_two]
    show i.val * n + l.val = (i.val * 1 + u.val) * n + l.val
    rw [hu, Nat.mul_one, Nat.add_zero])

/-- [a,b,1] broadcast to [a,b,n] reads, at (i, j, l), the operand at (i, j, 0). -/
theorem broadcastTo_ab1_abn_apply {a b n : ℕ} (x : (⟨3, ![a, b, 1]⟩ : Shape).Idx → α)
    (h : (⟨3, ![a, b, 1]⟩ : Shape).Broadcasts ⟨3, ![a, b, n]⟩) (i : Fin a) (j : Fin b) (l : Fin n) :
    broadcastTo ⟨3, ![a, b, n]⟩ x h (ix3 i j l) = x (ix3 i j (0 : Fin 1)) := by
  refine broadcastTo_apply x h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- [a,1,n] broadcast to [a,b,n] reads, at (i, j, l), the operand at (i, 0, l). -/
theorem broadcastTo_a1n_abn_apply {a b n : ℕ} (x : (⟨3, ![a, 1, n]⟩ : Shape).Idx → α)
    (h : (⟨3, ![a, 1, n]⟩ : Shape).Broadcasts ⟨3, ![a, b, n]⟩) (i : Fin a) (j : Fin b) (l : Fin n) :
    broadcastTo ⟨3, ![a, b, n]⟩ x h (ix3 i j l) = x (ix3 i (0 : Fin 1) l) := by
  refine broadcastTo_apply x h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if n = 1 then 0 else l.val
    split
    · have := l.isLt; omega
    · rfl

/-- A load through a unit-stride rectangle reads the contents at offset + coordinate on every axis. -/
theorem ld_unit_apply {Val : EltTy → Type} {e : EltTy} {S : Shape} (X : S.Idx → Val e) (off : Fin S.rank → Nat) (size : Fin S.rank → Nat)
    (inb : ∀ ax, off ax + size ax ≤ S.size ax) (y : (Rect.unit (s := S) off size inb).shape.Idx) (k : S.Idx)
    (hk : ∀ ax, (k ax).val = off ax + (y ax).val) :
    View.ld X (Rect.unit (s := S) off size inb) y = X k := by
  show X ((Rect.unit (s := S) off size inb).emb y) = X k
  refine congrArg X (funext fun ax => Fin.ext ?_)
  rw [Rect.emb_apply, hk ax]
  show off ax + 1 * (y ax).val = _
  rw [Nat.one_mul]

/-- The index over (i, j) with l inserted on the last axis is (i, j, l). -/
theorem lift_last {a b n : ℕ} (h : (⟨3, ![a, b, n]⟩ : Shape).Reduces [2] ⟨2, ![a, b]⟩) (i : Fin a) (j : Fin b) (l : Fin n) :
    h.lift (ix2 i j) l = ix3 i j l :=
  funext fun ax => Fin.ext (by match ax with | ⟨0, _⟩ => rfl | ⟨1, _⟩ => rfl | ⟨2, _⟩ => rfl)

/-- At the ideal values a `multi_reduction <minimumf>` over the last axis of an [a,b,n] array is, at (i, j), the fold of
    `min` from the accumulator's value over the entries (i, j, ·). -/
theorem multiReduction_minimumf_last {a b n : ℕ} {φ : FTy} (src : FVec Ideal ⟨3, ![a, b, n]⟩ φ) (acc : BitVec φ.bits)
    (h : (⟨3, ![a, b, n]⟩ : Shape).Reduces [2] ⟨2, ![a, b]⟩) (hφ : FKind.Formats φ)
    (hacc : acc = FKind.minimumf.neutral φ hφ) (i : Fin a) (j : Fin b) :
    multiReduction .minimumf [2] ⟨2, ![a, b]⟩ src acc h hφ hacc (ix2 i j)
      = (Finset.univ : Finset (Fin n)).fold min (Ideal.ofBits φ acc) (fun l => src (ix3 i j l)) := by
  rw [multiReduction_minimumf_eq_fold]
  refine (h.fold_filter_drop_single _ _ src (ix2 i j)).trans ?_
  exact congrArg (fun f : Fin n → EReal => (Finset.univ : Finset (Fin n)).fold min (Ideal.ofBits φ acc) f)
    (funext fun l => congrArg src (lift_last h i j l))

/-- The host's `reduce` with a minimum body over the last axis of an [a,b,n] array, at the ideal values, likewise: the
    fold of `min` from the initial value over the entries (i, j, ·). -/
theorem hostReduce_minimumf_last {a b n : ℕ} {φ : FTy} {u : Shape} (x : FVec Ideal ⟨3, ![a, b, n]⟩ φ)
    (init : u.Idx → Ideal φ) (h' : (⟨3, ![a, b, n]⟩ : Shape).ReducesTo [2] ⟨2, ![a, b]⟩)
    (h : (⟨3, ![a, b, n]⟩ : Shape).Reduces [2] ⟨2, ![a, b]⟩) (hu : 0 < u.numel) (i : Fin a) (j : Fin b) :
    Host.reduce (FloatOps.minimumf (F := Ideal) (φ := φ)) x init h' hu (ix2 i j)
      = (Finset.univ : Finset (Fin n)).fold min (init (Shape.Idx.first hu)) (fun l => x (ix3 i j l)) := by
  refine (Host.reduce_eq_fold_single _ x init h' h hu (ix2 i j)).trans ?_
  exact congrArg (fun f : Fin n → EReal => (Finset.univ : Finset (Fin n)).fold min (init (Shape.Idx.first hu)) f)
    (funext fun l => congrArg x (lift_last h i j l))

end Cert.Rank3UnitAxes

end
-- ==== Proof.LibAxisSums.lean ====
import Idealize.ShloMosaic.PureOps.Ideal.Laws
import Idealize.ShloMosaic.Lib.ValueIdx

/-!
# A float sum along one axis of a rank-3 array, read at an index

At the ideal values a vector unit's `multi_reduction <add>` from the zero (neutral) accumulator over ONE axis of an
`[a, b, n]` array is, at each index of the result, the plain finite sum of the source over that axis's coordinate;
any extents:

* `sum_mid_apply`: over the MIDDLE axis, into `[a, n]`: at `(i, l)` the sum over `j < b` of the source at `(i, j, l)`;
* `sum_last_apply`: over the LAST axis, into `[a, b]`: at `(i, j)` the sum over `l < n` of the source at `(i, j, l)`;
* `lift_mid`, `lift_last`: the reduced index with the coordinate put back on that axis is the rank-3 index.

A contraction written as "broadcast, multiply, sum along an axis" (a weighted sum over positions, a dot product along
the hidden axis) reads as a `Fin`-indexed sum of products through these.
-/

noncomputable section

open scoped BigOperators

namespace Cert.AxisSums

open Idealize.ShloMosaic Idealize.ShloMosaic.ValueIdx

/-- The index `(i, l)` with `j` inserted on the middle axis is `(i, j, l)`. -/
theorem lift_mid {a b n : ℕ} (hr : (⟨3, ![a, b, n]⟩ : Shape).Reduces [1] ⟨2, ![a, n]⟩) (i : Fin a) (l : Fin n) (j : Fin b) :
    hr.lift (ix2 i l) j = ix3 i j l :=
  funext fun ax => Fin.ext (by match ax with | ⟨0, _⟩ => rfl | ⟨1, _⟩ => rfl | ⟨2, _⟩ => rfl)

/-- The index `(i, j)` with `l` inserted on the last axis is `(i, j, l)`. -/
theorem lift_last {a b n : ℕ} (hr : (⟨3, ![a, b, n]⟩ : Shape).Reduces [2] ⟨2, ![a, b]⟩) (i : Fin a) (j : Fin b) (l : Fin n) :
    hr.lift (ix2 i j) l = ix3 i j l :=
  funext fun ax => Fin.ext (by match ax with | ⟨0, _⟩ => rfl | ⟨1, _⟩ => rfl | ⟨2, _⟩ => rfl)

/-- A sum over the middle axis of an `[a, b, n]` array at `(i, l)`. -/
theorem sum_mid_apply {a b n : ℕ} {φ : FTy} (src : FVec Ideal ⟨3, ![a, b, n]⟩ φ) (acc : BitVec φ.bits)
    (hr : (⟨3, ![a, b, n]⟩ : Shape).Reduces [1] ⟨2, ![a, n]⟩) (hφ : FKind.Formats φ) (hacc : acc = FKind.add.neutral φ hφ)
    (i : Fin a) (l : Fin n) :
    multiReduction .add [1] ⟨2, ![a, n]⟩ src acc hr hφ hacc (ix2 i l) = ∑ j : Fin b, src (ix3 i j l) := by
  refine (Ideal.multiReduction_add_single src acc hr hφ hacc (ix2 i l)).trans ?_
  exact Finset.sum_congr rfl fun j _ => congrArg src (lift_mid hr i l j)

/-- A sum over the last axis of an `[a, b, n]` array at `(i, j)`. -/
theorem sum_last_apply {a b n : ℕ} {φ : FTy} (src : FVec Ideal ⟨3, ![a, b, n]⟩ φ) (acc : BitVec φ.bits)
    (hr : (⟨3, ![a, b, n]⟩ : Shape).Reduces [2] ⟨2, ![a, b]⟩) (hφ : FKind.Formats φ) (hacc : acc = FKind.add.neutral φ hφ)
    (i : Fin a) (j : Fin b) :
    multiReduction .add [2] ⟨2, ![a, b]⟩ src acc hr hφ hacc (ix2 i j) = ∑ l : Fin n, src (ix3 i j l) := by
  refine (Ideal.multiReduction_add_single src acc hr hφ hacc (ix2 i j)).trans ?_
  exact Finset.sum_congr rfl fun l _ => congrArg src (lift_last hr i j l)

end Cert.AxisSums

end
-- ==== Proof.Tile.lean ====
/-
  One tile of the kernel at the ideal values, read at an index: the body's stored payloads as functions of the two
  loaded blocks and of what the scratch held.

  At row (b, r) of the [4, 512] running minimum, the body stores the minimum of what the scratch held there and of the
  infimum, over the 512 keys l of the key block, of the clamped squared distance between query point (b, r) and key point
  (b, l): the batched product contracted over the three coordinates is the inner product of the two points, the two
  reductions along the last axis are their squared norms, the two broadcasts place the query's norm along the keys and
  the keys' norms along the queries, and the minimum reduction along the keys starts from +∞.
-/
import proofs.«140770_j50070728737514_1_alg».proof.Proof.Gen.KernelIdeal.Skeleton
import proofs.«140770_j50070728737514_1_alg».proof.Proof.Spec
import proofs.«140770_j50070728737514_1_alg».proof.Proof.LibRank3UnitAxes
import proofs.«140770_j50070728737514_1_alg».proof.Proof.LibAxisSums
import Idealize.ShloMosaic.Lib.ValueIdx
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.Chamfer

/-! ## The batched product's operand indices -/

theorem lhs_0 (i : S4x512x512.Idx) (q : dot_S4x512x3_S4x512x3_S4x512x512_2_2_1_1_0_0.contr.Idx) : (dot_S4x512x3_S4x512x3_S4x512x512_2_2_1_1_0_0.lhsIdx i q 0).val = (i 0).val := by
  unfold DotDims.lhsIdx
  rw [dif_pos (show (0 : Fin S4x512x3.rank) ∈ dot_S4x512x3_S4x512x3_S4x512x512_2_2_1_1_0_0.lhsBatch by decide)]
  rfl
theorem lhs_1 (i : S4x512x512.Idx) (q : dot_S4x512x3_S4x512x3_S4x512x512_2_2_1_1_0_0.contr.Idx) : (dot_S4x512x3_S4x512x3_S4x512x512_2_2_1_1_0_0.lhsIdx i q 1).val = (i 1).val := by
  unfold DotDims.lhsIdx
  rw [dif_neg (show ¬(1 : Fin S4x512x3.rank) ∈ dot_S4x512x3_S4x512x3_S4x512x512_2_2_1_1_0_0.lhsBatch by decide), dif_pos (show (1 : Fin S4x512x3.rank) ∈ dot_S4x512x3_S4x512x3_S4x512x512_2_2_1_1_0_0.lhsNonContracting by decide)]
  rfl
theorem lhs_2 (i : S4x512x512.Idx) (q : dot_S4x512x3_S4x512x3_S4x512x512_2_2_1_1_0_0.contr.Idx) : (dot_S4x512x3_S4x512x3_S4x512x512_2_2_1_1_0_0.lhsIdx i q 2).val = (q ⟨0, by decide⟩).val :=
  dot_S4x512x3_S4x512x3_S4x512x512_2_2_1_1_0_0.lhsIdx_val_of_single rfl i q
theorem rhs_0 (i : S4x512x512.Idx) (q : dot_S4x512x3_S4x512x3_S4x512x512_2_2_1_1_0_0.contr.Idx) : (dot_S4x512x3_S4x512x3_S4x512x512_2_2_1_1_0_0.rhsIdx i q 0).val = (i 0).val := by
  unfold DotDims.rhsIdx
  rw [dif_pos (show (0 : Fin S4x512x3.rank) ∈ dot_S4x512x3_S4x512x3_S4x512x512_2_2_1_1_0_0.rhsBatch by decide)]
  rfl
theorem rhs_1 (i : S4x512x512.Idx) (q : dot_S4x512x3_S4x512x3_S4x512x512_2_2_1_1_0_0.contr.Idx) : (dot_S4x512x3_S4x512x3_S4x512x512_2_2_1_1_0_0.rhsIdx i q 1).val = (i 2).val := by
  unfold DotDims.rhsIdx
  rw [dif_neg (show ¬(1 : Fin S4x512x3.rank) ∈ dot_S4x512x3_S4x512x3_S4x512x512_2_2_1_1_0_0.rhsBatch by decide), dif_pos (show (1 : Fin S4x512x3.rank) ∈ dot_S4x512x3_S4x512x3_S4x512x512_2_2_1_1_0_0.rhsNonContracting by decide)]
  rfl
theorem rhs_2 (i : S4x512x512.Idx) (q : dot_S4x512x3_S4x512x3_S4x512x512_2_2_1_1_0_0.contr.Idx) : (dot_S4x512x3_S4x512x3_S4x512x512_2_2_1_1_0_0.rhsIdx i q 2).val = (q ⟨0, by decide⟩).val :=
  dot_S4x512x3_S4x512x3_S4x512x512_2_2_1_1_0_0.rhsIdx_val_of_single rfl i q

/-- The batched product into the zero accumulator at (b, r, l): the inner product of query point (b, r) and key point (b, l). -/
theorem cross_apply (x0 x1 : FVec Ideal S4x512x3 .f32) (b : Fin 4) (r l : Fin 512) :
    matmul dot_S4x512x3_S4x512x3_S4x512x512_2_2_1_1_0_0 none x0 x1 (constant S4x512x512 .f32 0x00000000#32) (ix3 b r l)
      = ∑ d : Fin 3, x0 (ix3 b r d) * x1 (ix3 b l d) := by
  simp only [matmul]
  rw [Ideal.matmul_constant_zero_apply, ← Equiv.sum_comp (ValueIdx.contrEquiv1 dot_S4x512x3_S4x512x3_S4x512x512_2_2_1_1_0_0 3 rfl rfl).symm]
  refine Finset.sum_congr rfl fun k _ => ?_
  have hk := ValueIdx.contrEquiv1_symm_val dot_S4x512x3_S4x512x3_S4x512x512_2_2_1_1_0_0 3 rfl rfl k
  have el : dot_S4x512x3_S4x512x3_S4x512x512_2_2_1_1_0_0.lhsIdx (ix3 b r l) ((ValueIdx.contrEquiv1 dot_S4x512x3_S4x512x3_S4x512x512_2_2_1_1_0_0 3 rfl rfl).symm k) = ix3 b r k := funext fun a => Fin.ext (by
    match a with
    | ⟨0, _⟩ => exact lhs_0 _ _
    | ⟨1, _⟩ => exact lhs_1 _ _
    | ⟨2, _⟩ => exact (lhs_2 _ _).trans hk)
  have er : dot_S4x512x3_S4x512x3_S4x512x512_2_2_1_1_0_0.rhsIdx (ix3 b r l) ((ValueIdx.contrEquiv1 dot_S4x512x3_S4x512x3_S4x512x512_2_2_1_1_0_0 3 rfl rfl).symm k) = ix3 b l k := funext fun a => Fin.ext (by
    match a with
    | ⟨0, _⟩ => exact rhs_0 _ _
    | ⟨1, _⟩ => exact rhs_1 _ _
    | ⟨2, _⟩ => exact (rhs_2 _ _).trans hk)
  rw [el, er]

/-! ## The payloads at an index -/

/-- The reset value: +∞ everywhere. -/
theorem pay1_apply (j : S4x512.Idx) : k0_pay1 (F := Ideal) j = (⊤ : EReal) := by
  unfold k0_pay1
  simp only [shapeCast_self]
  exact ofBits_inf

/-- The query block's squared norms, reduced along the coordinates, set as a column and repeated along the keys. -/
theorem normQ (x : FVec Ideal S4x512x3 .f32) (acc : BitVec 32) (h : S4x512x3.Reduces [2] S4x512) (hφ : FKind.Formats FTy.f32)
    (hacc : acc = FKind.add.neutral FTy.f32 hφ) (hc : S4x512.ShapeCasts S4x512x1) (hb : S4x512x1.Broadcasts S4x512x512)
    (b : Fin 4) (r l : Fin 512) :
    broadcastTo S4x512x512 (shapeCast S4x512x1 (multiReduction .add [2] S4x512 (mulf x x) acc h hφ hacc) hc) hb (ix3 b r l)
      = ∑ d : Fin 3, x (ix3 b r d) * x (ix3 b r d) :=
  (Cert.Rank3UnitAxes.broadcastTo_ab1_abn_apply _ hb b r l).trans
    ((Cert.Rank3UnitAxes.shapeCast_ab_ab1_apply _ hc b r 0).trans
      (Cert.AxisSums.sum_last_apply (mulf x x) acc h hφ hacc b r))

/-- The key block's squared norms, set as a row and repeated along the queries. -/
theorem normK (x : FVec Ideal S4x512x3 .f32) (acc : BitVec 32) (h : S4x512x3.Reduces [2] S4x512) (hφ : FKind.Formats FTy.f32)
    (hacc : acc = FKind.add.neutral FTy.f32 hφ) (hc : S4x512.ShapeCasts S4x1x512) (hb : S4x1x512.Broadcasts S4x512x512)
    (b : Fin 4) (r l : Fin 512) :
    broadcastTo S4x512x512 (shapeCast S4x1x512 (multiReduction .add [2] S4x512 (mulf x x) acc h hφ hacc) hc) hb (ix3 b r l)
      = ∑ d : Fin 3, x (ix3 b l d) * x (ix3 b l d) :=
  (Cert.Rank3UnitAxes.broadcastTo_a1n_abn_apply _ hb b r l).trans
    ((Cert.Rank3UnitAxes.shapeCast_an_a1n_apply _ hc b 0 l).trans
      (Cert.AxisSums.sum_last_apply (mulf x x) acc h hφ hacc b l))

/-- The running minimum's update at row (b, r). -/
theorem pay2_apply (x0 x1 : Vec Ideal S4x512x3 .f32) (s : Vec Ideal S4x512 .f32) (b : Fin 4) (r : Fin 512) :
    k0_pay2 (F := Ideal) x0 x1 s (ix2 b r)
      = min (s (ix2 b r)) ((Finset.univ : Finset (Fin 512)).inf fun l => dist2 (fun d => x0 (ix3 b r d)) (fun d => x1 (ix3 b l d))) := by
  unfold k0_pay2
  simp only [shapeCast_self]
  refine congrArg (min (s (ix2 b r))) ?_
  refine (Cert.Rank3UnitAxes.multiReduction_minimumf_last _ _ _ _ _ b r).trans ?_
  refine (congrArg (fun z => (Finset.univ : Finset (Fin 512)).fold min z _) ofBits_inf).trans ?_
  show (Finset.univ : Finset (Fin 512)).inf _ = _
  refine Finset.inf_congr rfl fun l _ => ?_
  exact congrArg₂ max
    (congrArg₂ (fun u v : EReal => u - v)
      (congrArg₂ (fun u v : EReal => u + v) (normQ x0 _ _ _ _ _ _ b r l) (normK x1 _ _ _ _ _ _ b r l))
      (congrArg (fun v : EReal => Ideal.ofBits .f32 0x40000000#32 * v) (cross_apply x0 x1 b r l)))
    rfl

/-- The stored output at an index: the square root of the running minimum there. -/
theorem pay3_apply (v : Vec Ideal S4x512 .f32) (j : S4x512.Idx) : k0_pay3 (F := Ideal) v j = Ideal.sqrt (v j) := rfl

/-! ## Region 1's body is the same text: its payloads are region 0's -/

theorem pay1_apply' (j : S4x512.Idx) : k1_pay1 (F := Ideal) j = (⊤ : EReal) := pay1_apply j
theorem pay2_apply' (x0 x1 : Vec Ideal S4x512x3 .f32) (s : Vec Ideal S4x512 .f32) (b : Fin 4) (r : Fin 512) :
    k1_pay2 (F := Ideal) x0 x1 s (ix2 b r)
      = min (s (ix2 b r)) ((Finset.univ : Finset (Fin 512)).inf fun l => dist2 (fun d => x0 (ix3 b r d)) (fun d => x1 (ix3 b l d))) :=
  pay2_apply x0 x1 s b r
theorem pay3_apply' (v : Vec Ideal S4x512 .f32) (j : S4x512.Idx) : k1_pay3 (F := Ideal) v j = Ideal.sqrt (v j) := rfl

end Cert.KernelIdeal.Tile

end
-- ==== Proof.Ideal.Value0.lean ====
/-
  Region 0 at the ideal values: what its result array holds when the region is left.

  Grid point t works on query tile t / 16 and key tile t mod 16. Through the sixteen key tiles of one query tile the
  scratch holds, at row (b, r), the running minimum of the clamped squared distances from query point 512·(t / 16) + r
  to the keys seen so far; the order facts of the specification turn the chain of sixteen tile minima into the infimum
  over all 8192 keys; the last key tile stores its square root into the result block, and the sixteen result blocks
  tile the result array.
-/
import proofs.«140770_j50070728737514_1_alg».proof.Proof.Ideal.Region0
import proofs.«140770_j50070728737514_1_alg».proof.Proof.Tile
import proofs.«140770_j50070728737514_1_alg».proof.Proof.Spec

set_option maxRecDepth 16384

noncomputable section

namespace Cert.KernelIdeal.Hand

open Cert.KernelIdeal Cert.KernelIdeal.Gen Cert.KernelIdeal.Tile Cert.Chamfer
open Idealize.ShloMosaic Idealize.ShloMosaic.TcCoe Idealize.ShloMosaic.ValueIdx
open Idealize.SL.Sem
open Idealize.ShloMosaic.Pipeline (Dat Cfg Window)

section
variable (V : (c : Dev nD) → (b : Ref sig .tc) → Buf (Elt Ideal) ((c : Thread nD τ).loc b))

/-! ## Region 0: queries `main_v1`, keys `main_v3`, result `main_v4` -/

/-- The printed index maps over the grid: point `t` stages query tile `t / 16` and key tile `t mod 16`, and writes result
    tile `t / 16`. -/
theorem idx0 : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 2) = 0 ∧ win0_2.index t (1 : Fin 2) = t.val / 16 :=
  (by decide +kernel : ∀ t : Fin grid0.N, _)

/-- The query block at point `t`: rows 512·(t / 16) … of the query array. -/
theorem iblk0_0_apply (c : Dev nD) (t : Fin cfg0.N) (b : Fin 4) (r : Fin 512) (d : Fin 3) (n : Fin 8192)
    (hn : n.val = 512 * (t.val / 16) + r.val) :
    iblk0 V c 0 t (ix3 b r d) = V c main_v1 (ix3 b n d) := by
  obtain ⟨e0, e1, e2, -⟩ := idx0 t
  show V c main_v1 (((cfg0.win 0).blk t).view.emb (ix3 b r d)) = V c main_v1 (ix3 b n d)
  refine congrArg (V c main_v1) (funext fun a => Fin.ext ?_)
  match a with
  | ⟨0, _⟩ => show win0_0.index t (0 : Fin 3) * 4 + 1 * b.val = b.val; omega
  | ⟨1, _⟩ => show win0_0.index t (1 : Fin 3) * 512 + 1 * r.val = n.val; omega
  | ⟨2, _⟩ => show win0_0.index t (2 : Fin 3) * 3 + 1 * d.val = d.val; omega

/-- The key block at point `t`: rows 512·(t mod 16) … of the key array. -/
theorem iblk0_1_apply (c : Dev nD) (t : Fin cfg0.N) (b : Fin 4) (l : Fin 512) (d : Fin 3) (n : Fin 8192)
    (hn : n.val = 512 * (t.val % 16) + l.val) :
    iblk0 V c 1 t (ix3 b l d) = V c main_v3 (ix3 b n d) := by
  obtain ⟨-, -, -, e3, e4, e5, -⟩ := idx0 t
  show V c main_v3 (((cfg0.win 1).blk t).view.emb (ix3 b l d)) = V c main_v3 (ix3 b n d)
  refine congrArg (V c main_v3) (funext fun a => Fin.ext ?_)
  match a with
  | ⟨0, _⟩ => show win0_1.index t (0 : Fin 3) * 4 + 1 * b.val = b.val; omega
  | ⟨1, _⟩ => show win0_1.index t (1 : Fin 3) * 512 + 1 * l.val = n.val; omega
  | ⟨2, _⟩ => show win0_1.index t (2 : Fin 3) * 3 + 1 * d.val = d.val; omega

/-- Row (b, r)'s minimum over the 512 keys of point `t`'s key block. -/
def tile0 (c : Dev nD) (b : Fin 4) (r : Fin 512) (t : Fin cfg0.N) : EReal :=
  (Finset.univ : Finset (Fin 512)).inf fun l => dist2 (fun d => iblk0 V c 0 t (ix3 b r d)) (fun d => iblk0 V c 1 t (ix3 b l d))

/-- The running minimum at row (b, r) after point `t`: the infimum over the key tiles of `t`'s run so far. -/
theorem acc0_inf (c : Dev nD) (b : Fin 4) (r : Fin 512) (t : Fin cfg0.N) :
    acc0 V c t.val t.isLt (ix2 b r) = (runUpTo t).inf (tile0 V c b r) :=
  running_min (N := cfg0.N) (fun t => acc0 V c t.val t.isLt (ix2 b r)) (tile0 V c b r)
    (fun t h0 => (congrFun (acc0_first V c t h0) (ix2 b r)).trans
      ((pay2_apply (iblk0 V c 0 t) (iblk0 V c 1 t) (k0_pay1 (F := Ideal)) b r).trans
        (congrArg (fun z => min z (tile0 V c b r t)) (pay1_apply (ix2 b r)))))
    (fun t h0 => (congrFun (acc0_next V c t h0) (ix2 b r)).trans
      (pay2_apply (iblk0 V c 0 t) (iblk0 V c 1 t) (acc0 V c (t.val - 1) (Nat.lt_of_le_of_lt (Nat.sub_le _ _) t.isLt)) b r))
    t.val t.isLt

/-- A tile in terms of the arrays: query point n = 512·(t / 16) + r against the keys of tile t mod 16. -/
theorem tile0_eq (c : Dev nD) (b : Fin 4) (r : Fin 512) (t : Fin cfg0.N) (n : Fin 8192) (hn : n.val = 512 * (t.val / 16) + r.val) :
    tile0 V c b r t = (Finset.univ : Finset (Fin 512)).inf fun l => dist2 (pt (V c main_v1) b n) (pt (V c main_v3) b (key (t.val % 16) l)) := by
  unfold tile0
  refine Finset.inf_congr rfl fun l _ => ?_
  have hk : (key (t.val % 16) l).val = 512 * (t.val % 16) + l.val := key_val _ (Nat.mod_lt _ (by decide)) l
  exact congrArg₂ dist2 (funext fun d => iblk0_0_apply V c t b r d n hn) (funext fun d => iblk0_1_apply V c t b l d (key (t.val % 16) l) hk)

/-- At the last key tile of a run the running minimum at row (b, r) is the infimum over all 8192 keys. -/
theorem acc0_last (c : Dev nD) (b : Fin 4) (r : Fin 512) (t : Fin cfg0.N) (h : t.val % 16 = 15) (n : Fin 8192)
    (hn : n.val = 512 * (t.val / 16) + r.val) :
    acc0 V c t.val t.isLt (ix2 b r) = (Finset.univ : Finset (Fin 8192)).inf fun m => dist2 (pt (V c main_v1) b n) (pt (V c main_v3) b m) := by
  have hN : cfg0.N = 256 := N_0
  have ht := t.isLt
  rw [acc0_inf V c b r t, runUpTo_last t h]
  refine (Finset.inf_congr rfl fun t' ht' => tile0_eq V c b r t' n (by have := (Finset.mem_filter.mp ht').2; omega)).trans ?_
  exact inf_by_tiles (Finset.univ.filter fun t' : Fin cfg0.N => t'.val / 16 = t.val / 16) (fun t' : Fin cfg0.N => t'.val % 16)
    (fun _ _ => Nat.mod_lt _ (by decide))
    (fun j hj => ⟨⟨16 * (t.val / 16) + j, by omega⟩,
      Finset.mem_filter.mpr ⟨Finset.mem_univ _, (by show (16 * (t.val / 16) + j) / 16 = t.val / 16; omega)⟩,
      (by show (16 * (t.val / 16) + j) % 16 = j; omega)⟩)
    (fun m => dist2 (pt (V c main_v1) b n) (pt (V c main_v3) b m))

/-- What the region leaves in its result array: at (b, n) the distance from query point n to the nearest key. -/
def G0 (c : Dev nD) : Buf (Elt Ideal) ((c : Thread nD τ).loc main_v4) :=
  fun i : S4x8192.Idx => nearest (V c main_v1) (V c main_v3) (i 0) (i 1)

/-- What a writing point writes back is its block of `G0`. -/
theorem flushed0_eq (c : Dev nD) (t : Fin cfg0.N) (hf : (cfg0.win 2).flush t = true) :
    (dat0 V c).flushed 2 t = ((cfg0.win 2).blk t).view.read (Elt Ideal) (G0 V c) := by
  have h15 : t.val % 16 = 15 := (flush0_2 t).mp hf
  have hN : cfg0.N = 256 := N_0
  have ht := t.isLt
  obtain ⟨-, -, -, -, -, -, e6, e7⟩ := idx0 t
  show (cfg0.win 2).cut (grid0.coords t) ((dat0 V c).after 2 t) = _
  rw [after0_2]
  funext j
  have hj0 : (j 0).val < 4 := (j 0).isLt
  have hj1 : (j 1).val < 512 := (j 1).isLt
  refine (congrArg (fun z => Ideal.sqrt (acc0 V c t.val t.isLt z)) (eq_ix2 j)).trans ?_
  refine (congrArg Ideal.sqrt (acc0_last V c (j 0) (j 1) t h15 ⟨512 * (t.val / 16) + (j 1).val, by omega⟩ rfl)).trans ?_
  show _ = nearest (V c main_v1) (V c main_v3) ((((cfg0.win 2).blk t).view.emb j) 0) ((((cfg0.win 2).blk t).view.emb j) 1)
  have e0 : (((cfg0.win 2).blk t).view.emb j) 0 = j 0 := Fin.ext (by
    show win0_2.index t (0 : Fin 2) * 4 + 1 * (j 0).val = (j 0).val; omega)
  have e1 : (((cfg0.win 2).blk t).view.emb j) 1 = (⟨512 * (t.val / 16) + (j 1).val, by omega⟩ : Fin 8192) := Fin.ext (by
    show win0_2.index t (1 : Fin 2) * 512 + 1 * (j 1).val = 512 * (t.val / 16) + (j 1).val; omega)
  rw [e0, e1]
  rfl

theorem mem_blk0 (t : Fin cfg0.N) (i : S4x8192.Idx) :
    i ∈ ((cfg0.win 2).blk t).view.set ↔ ∀ a : Fin 2, win0_2.index t a * S4x512.size a ≤ (i a).val ∧ (i a).val < win0_2.index t a * S4x512.size a + S4x512.size a := by
  show i ∈ ((View.whole main_v4).slice (win0_2.rect t)).set ↔ _
  rw [View.set_slice_whole, Rect.mem_set_unit]
  exact Iff.rfl

/-- Every index of the result array is in the block of the last key tile of its query tile. -/
theorem cover0 (i : S4x8192.Idx) : ∃ t : Fin cfg0.N, (cfg0.win 2).flush t = true ∧ i ∈ ((cfg0.win 2).blk t).view.set := by
  have hi0 : (i 0).val < 4 := (i 0).isLt
  have hi1 : (i 1).val < 8192 := (i 1).isLt
  have hN : cfg0.N = 256 := N_0
  have hlt : 16 * ((i 1).val / 512) + 15 < cfg0.N := by omega
  obtain ⟨-, -, -, -, -, -, e6, e7⟩ := idx0 ⟨16 * ((i 1).val / 512) + 15, hlt⟩
  refine ⟨⟨16 * ((i 1).val / 512) + 15, hlt⟩, (flush0_2 _).mpr (by show (16 * ((i 1).val / 512) + 15) % 16 = 15; omega), ?_⟩
  rw [mem_blk0]
  intro a
  match a with
  | ⟨0, _⟩ =>
    show win0_2.index ⟨16 * ((i 1).val / 512) + 15, hlt⟩ (0 : Fin 2) * 4 ≤ (i 0).val ∧ (i 0).val < win0_2.index ⟨16 * ((i 1).val / 512) + 15, hlt⟩ (0 : Fin 2) * 4 + 4
    omega
  | ⟨1, _⟩ =>
    show win0_2.index ⟨16 * ((i 1).val / 512) + 15, hlt⟩ (1 : Fin 2) * 512 ≤ (i 1).val ∧ (i 1).val < win0_2.index ⟨16 * ((i 1).val / 512) + 15, hlt⟩ (1 : Fin 2) * 512 + 512
    have e7' : win0_2.index ⟨16 * ((i 1).val / 512) + 15, hlt⟩ (1 : Fin 2) = (16 * ((i 1).val / 512) + 15) / 16 := e7
    omega

/-- THE RESULT ARRAY after region 0. -/
theorem final0 (c : Dev nD) : (dat0 V c).arrAt 2 cfg0.N = G0 V c :=
  (dat0 V c).arrAt_eq_of_cover 2 (G0 V c) (fun t hf => flushed0_eq V c t hf) (cover0)

end

end Cert.KernelIdeal.Hand

end
-- ==== Proof.Ideal.Value1.lean ====
/-
  Region 1 at the ideal values: what its result array holds when the region is left.

  Grid point t works on query tile t / 16 and key tile t mod 16. Through the sixteen key tiles of one query tile the
  scratch holds, at row (b, r), the running minimum of the clamped squared distances from query point 512·(t / 16) + r
  to the keys seen so far; the order facts of the specification turn the chain of sixteen tile minima into the infimum
  over all 8192 keys; the last key tile stores its square root into the result block, and the sixteen result blocks
  tile the result array.
-/
import proofs.«140770_j50070728737514_1_alg».proof.Proof.Ideal.Region1
import proofs.«140770_j50070728737514_1_alg».proof.Proof.Tile
import proofs.«140770_j50070728737514_1_alg».proof.Proof.Spec

set_option maxRecDepth 16384

noncomputable section

namespace Cert.KernelIdeal.Hand

open Cert.KernelIdeal Cert.KernelIdeal.Gen Cert.KernelIdeal.Tile Cert.Chamfer
open Idealize.ShloMosaic Idealize.ShloMosaic.TcCoe Idealize.ShloMosaic.ValueIdx
open Idealize.SL.Sem
open Idealize.ShloMosaic.Pipeline (Dat Cfg Window)

section
variable (V : (c : Dev nD) → (b : Ref sig .tc) → Buf (Elt Ideal) ((c : Thread nD τ).loc b))

/-! ## Region 1: queries `main_v3`, keys `main_v1`, result `main_v5` -/

/-- The printed index maps over the grid: point `t` stages query tile `t / 16` and key tile `t mod 16`, and writes result
    tile `t / 16`. -/
theorem idx1 : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 2) = 0 ∧ win1_2.index t (1 : Fin 2) = t.val / 16 :=
  (by decide +kernel : ∀ t : Fin grid1.N, _)

/-- The query block at point `t`: rows 512·(t / 16) … of the query array. -/
theorem iblk1_0_apply (c : Dev nD) (t : Fin cfg1.N) (b : Fin 4) (r : Fin 512) (d : Fin 3) (n : Fin 8192)
    (hn : n.val = 512 * (t.val / 16) + r.val) :
    iblk1 V c 0 t (ix3 b r d) = V c main_v3 (ix3 b n d) := by
  obtain ⟨e0, e1, e2, -⟩ := idx1 t
  show V c main_v3 (((cfg1.win 0).blk t).view.emb (ix3 b r d)) = V c main_v3 (ix3 b n d)
  refine congrArg (V c main_v3) (funext fun a => Fin.ext ?_)
  match a with
  | ⟨0, _⟩ => show win1_0.index t (0 : Fin 3) * 4 + 1 * b.val = b.val; omega
  | ⟨1, _⟩ => show win1_0.index t (1 : Fin 3) * 512 + 1 * r.val = n.val; omega
  | ⟨2, _⟩ => show win1_0.index t (2 : Fin 3) * 3 + 1 * d.val = d.val; omega

/-- The key block at point `t`: rows 512·(t mod 16) … of the key array. -/
theorem iblk1_1_apply (c : Dev nD) (t : Fin cfg1.N) (b : Fin 4) (l : Fin 512) (d : Fin 3) (n : Fin 8192)
    (hn : n.val = 512 * (t.val % 16) + l.val) :
    iblk1 V c 1 t (ix3 b l d) = V c main_v1 (ix3 b n d) := by
  obtain ⟨-, -, -, e3, e4, e5, -⟩ := idx1 t
  show V c main_v1 (((cfg1.win 1).blk t).view.emb (ix3 b l d)) = V c main_v1 (ix3 b n d)
  refine congrArg (V c main_v1) (funext fun a => Fin.ext ?_)
  match a with
  | ⟨0, _⟩ => show win1_1.index t (0 : Fin 3) * 4 + 1 * b.val = b.val; omega
  | ⟨1, _⟩ => show win1_1.index t (1 : Fin 3) * 512 + 1 * l.val = n.val; omega
  | ⟨2, _⟩ => show win1_1.index t (2 : Fin 3) * 3 + 1 * d.val = d.val; omega

/-- Row (b, r)'s minimum over the 512 keys of point `t`'s key block. -/
def tile1 (c : Dev nD) (b : Fin 4) (r : Fin 512) (t : Fin cfg1.N) : EReal :=
  (Finset.univ : Finset (Fin 512)).inf fun l => dist2 (fun d => iblk1 V c 0 t (ix3 b r d)) (fun d => iblk1 V c 1 t (ix3 b l d))

/-- The running minimum at row (b, r) after point `t`: the infimum over the key tiles of `t`'s run so far. -/
theorem acc1_inf (c : Dev nD) (b : Fin 4) (r : Fin 512) (t : Fin cfg1.N) :
    acc1 V c t.val t.isLt (ix2 b r) = (runUpTo t).inf (tile1 V c b r) :=
  running_min (N := cfg1.N) (fun t => acc1 V c t.val t.isLt (ix2 b r)) (tile1 V c b r)
    (fun t h0 => (congrFun (acc1_first V c t h0) (ix2 b r)).trans
      ((pay2_apply' (iblk1 V c 0 t) (iblk1 V c 1 t) (k1_pay1 (F := Ideal)) b r).trans
        (congrArg (fun z => min z (tile1 V c b r t)) (pay1_apply' (ix2 b r)))))
    (fun t h0 => (congrFun (acc1_next V c t h0) (ix2 b r)).trans
      (pay2_apply' (iblk1 V c 0 t) (iblk1 V c 1 t) (acc1 V c (t.val - 1) (Nat.lt_of_le_of_lt (Nat.sub_le _ _) t.isLt)) b r))
    t.val t.isLt

/-- A tile in terms of the arrays: query point n = 512·(t / 16) + r against the keys of tile t mod 16. -/
theorem tile1_eq (c : Dev nD) (b : Fin 4) (r : Fin 512) (t : Fin cfg1.N) (n : Fin 8192) (hn : n.val = 512 * (t.val / 16) + r.val) :
    tile1 V c b r t = (Finset.univ : Finset (Fin 512)).inf fun l => dist2 (pt (V c main_v3) b n) (pt (V c main_v1) b (key (t.val % 16) l)) := by
  unfold tile1
  refine Finset.inf_congr rfl fun l _ => ?_
  have hk : (key (t.val % 16) l).val = 512 * (t.val % 16) + l.val := key_val _ (Nat.mod_lt _ (by decide)) l
  exact congrArg₂ dist2 (funext fun d => iblk1_0_apply V c t b r d n hn) (funext fun d => iblk1_1_apply V c t b l d (key (t.val % 16) l) hk)

/-- At the last key tile of a run the running minimum at row (b, r) is the infimum over all 8192 keys. -/
theorem acc1_last (c : Dev nD) (b : Fin 4) (r : Fin 512) (t : Fin cfg1.N) (h : t.val % 16 = 15) (n : Fin 8192)
    (hn : n.val = 512 * (t.val / 16) + r.val) :
    acc1 V c t.val t.isLt (ix2 b r) = (Finset.univ : Finset (Fin 8192)).inf fun m => dist2 (pt (V c main_v3) b n) (pt (V c main_v1) b m) := by
  have hN : cfg1.N = 256 := N_1
  have ht := t.isLt
  rw [acc1_inf V c b r t, runUpTo_last t h]
  refine (Finset.inf_congr rfl fun t' ht' => tile1_eq V c b r t' n (by have := (Finset.mem_filter.mp ht').2; omega)).trans ?_
  exact inf_by_tiles (Finset.univ.filter fun t' : Fin cfg1.N => t'.val / 16 = t.val / 16) (fun t' : Fin cfg1.N => t'.val % 16)
    (fun _ _ => Nat.mod_lt _ (by decide))
    (fun j hj => ⟨⟨16 * (t.val / 16) + j, by omega⟩,
      Finset.mem_filter.mpr ⟨Finset.mem_univ _, (by show (16 * (t.val / 16) + j) / 16 = t.val / 16; omega)⟩,
      (by show (16 * (t.val / 16) + j) % 16 = j; omega)⟩)
    (fun m => dist2 (pt (V c main_v3) b n) (pt (V c main_v1) b m))

/-- What the region leaves in its result array: at (b, n) the distance from query point n to the nearest key. -/
def G1 (c : Dev nD) : Buf (Elt Ideal) ((c : Thread nD τ).loc main_v5) :=
  fun i : S4x8192.Idx => nearest (V c main_v3) (V c main_v1) (i 0) (i 1)

/-- What a writing point writes back is its block of `G1`. -/
theorem flushed1_eq (c : Dev nD) (t : Fin cfg1.N) (hf : (cfg1.win 2).flush t = true) :
    (dat1 V c).flushed 2 t = ((cfg1.win 2).blk t).view.read (Elt Ideal) (G1 V c) := by
  have h15 : t.val % 16 = 15 := (flush1_2 t).mp hf
  have hN : cfg1.N = 256 := N_1
  have ht := t.isLt
  obtain ⟨-, -, -, -, -, -, e6, e7⟩ := idx1 t
  show (cfg1.win 2).cut (grid1.coords t) ((dat1 V c).after 2 t) = _
  rw [after1_2]
  funext j
  have hj0 : (j 0).val < 4 := (j 0).isLt
  have hj1 : (j 1).val < 512 := (j 1).isLt
  refine (congrArg (fun z => Ideal.sqrt (acc1 V c t.val t.isLt z)) (eq_ix2 j)).trans ?_
  refine (congrArg Ideal.sqrt (acc1_last V c (j 0) (j 1) t h15 ⟨512 * (t.val / 16) + (j 1).val, by omega⟩ rfl)).trans ?_
  show _ = nearest (V c main_v3) (V c main_v1) ((((cfg1.win 2).blk t).view.emb j) 0) ((((cfg1.win 2).blk t).view.emb j) 1)
  have e0 : (((cfg1.win 2).blk t).view.emb j) 0 = j 0 := Fin.ext (by
    show win1_2.index t (0 : Fin 2) * 4 + 1 * (j 0).val = (j 0).val; omega)
  have e1 : (((cfg1.win 2).blk t).view.emb j) 1 = (⟨512 * (t.val / 16) + (j 1).val, by omega⟩ : Fin 8192) := Fin.ext (by
    show win1_2.index t (1 : Fin 2) * 512 + 1 * (j 1).val = 512 * (t.val / 16) + (j 1).val; omega)
  rw [e0, e1]
  rfl

theorem mem_blk1 (t : Fin cfg1.N) (i : S4x8192.Idx) :
    i ∈ ((cfg1.win 2).blk t).view.set ↔ ∀ a : Fin 2, win1_2.index t a * S4x512.size a ≤ (i a).val ∧ (i a).val < win1_2.index t a * S4x512.size a + S4x512.size a := by
  show i ∈ ((View.whole main_v5).slice (win1_2.rect t)).set ↔ _
  rw [View.set_slice_whole, Rect.mem_set_unit]
  exact Iff.rfl

/-- Every index of the result array is in the block of the last key tile of its query tile. -/
theorem cover1 (i : S4x8192.Idx) : ∃ t : Fin cfg1.N, (cfg1.win 2).flush t = true ∧ i ∈ ((cfg1.win 2).blk t).view.set := by
  have hi0 : (i 0).val < 4 := (i 0).isLt
  have hi1 : (i 1).val < 8192 := (i 1).isLt
  have hN : cfg1.N = 256 := N_1
  have hlt : 16 * ((i 1).val / 512) + 15 < cfg1.N := by omega
  obtain ⟨-, -, -, -, -, -, e6, e7⟩ := idx1 ⟨16 * ((i 1).val / 512) + 15, hlt⟩
  refine ⟨⟨16 * ((i 1).val / 512) + 15, hlt⟩, (flush1_2 _).mpr (by show (16 * ((i 1).val / 512) + 15) % 16 = 15; omega), ?_⟩
  rw [mem_blk1]
  intro a
  match a with
  | ⟨0, _⟩ =>
    show win1_2.index ⟨16 * ((i 1).val / 512) + 15, hlt⟩ (0 : Fin 2) * 4 ≤ (i 0).val ∧ (i 0).val < win1_2.index ⟨16 * ((i 1).val / 512) + 15, hlt⟩ (0 : Fin 2) * 4 + 4
    omega
  | ⟨1, _⟩ =>
    show win1_2.index ⟨16 * ((i 1).val / 512) + 15, hlt⟩ (1 : Fin 2) * 512 ≤ (i 1).val ∧ (i 1).val < win1_2.index ⟨16 * ((i 1).val / 512) + 15, hlt⟩ (1 : Fin 2) * 512 + 512
    have e7' : win1_2.index ⟨16 * ((i 1).val / 512) + 15, hlt⟩ (1 : Fin 2) = (16 * ((i 1).val / 512) + 15) / 16 := e7
    omega

/-- THE RESULT ARRAY after region 1. -/
theorem final1 (c : Dev nD) : (dat1 V c).arrAt 2 cfg1.N = G1 V c :=
  (dat1 V c).arrAt_eq_of_cover 2 (G1 V c) (fun t hf => flushed1_eq V c t hf) (cover1)

end

end Cert.KernelIdeal.Hand

end
-- ==== Proof.LibMidAxisMin.lean ====
/-
  A minimum reduction along the MIDDLE axis of a rank-3 array, read at an index; any extents.

  At the ideal values the host's `reduce` with a minimum body over the middle axis of an [a, b, n] array is, at (i, l),
  the fold of `min` from the initial value over the b entries (i, ·, l).
-/
import Idealize.ShloMosaic.Lib.Pipeline.Value
import Idealize.ShloMosaic.Lib.ValueIdx
import Idealize.ShloMosaic.PureOps.Ideal.Laws

noncomputable section

namespace Cert.MidAxisMin

open Idealize.ShloMosaic Idealize.ShloMosaic.ValueIdx

/-- The index over (i, l) with j inserted on the middle axis is (i, j, l). -/
theorem lift_mid {a b n : ℕ} (h : (⟨3, ![a, b, n]⟩ : Shape).Reduces [1] ⟨2, ![a, n]⟩) (i : Fin a) (l : Fin n) (j : Fin b) :
    h.lift (ix2 i l) j = ix3 i j l :=
  funext fun ax => Fin.ext (by match ax with | ⟨0, _⟩ => rfl | ⟨1, _⟩ => rfl | ⟨2, _⟩ => rfl)

/-- The host's `reduce` with a minimum body over the middle axis of an [a, b, n] array, at the ideal values: at (i, l)
    the fold of `min` from the initial value over the entries (i, ·, l). -/
theorem hostReduce_minimumf_mid {a b n : ℕ} {φ : FTy} {u : Shape} (x : FVec Ideal ⟨3, ![a, b, n]⟩ φ)
    (init : u.Idx → Ideal φ) (h' : (⟨3, ![a, b, n]⟩ : Shape).ReducesTo [1] ⟨2, ![a, n]⟩)
    (h : (⟨3, ![a, b, n]⟩ : Shape).Reduces [1] ⟨2, ![a, n]⟩) (hu : 0 < u.numel) (i : Fin a) (l : Fin n) :
    Host.reduce (FloatOps.minimumf (F := Ideal) (φ := φ)) x init h' hu (ix2 i l)
      = (Finset.univ : Finset (Fin b)).fold min (init (Shape.Idx.first hu)) (fun j => x (ix3 i j l)) := by
  refine (Host.reduce_eq_fold_single _ x init h' h hu (ix2 i l)).trans ?_
  exact congrArg (fun f : Fin b → EReal => (Finset.univ : Finset (Fin b)).fold min (init (Shape.Idx.first hu)) f)
    (funext fun j => congrArg x (lift_mid h i l j))

end Cert.MidAxisMin

end
-- ==== Proof.RefValue.lean ====
/-
  The reference at the ideal values, read at an index.

  Its [4, 8192, 8192] array of clamped squared distances holds, at (b, n, m), `dist2` of point n of the first (scaled) set
  and point m of the second: the two reductions along the coordinates are the squared norms (from the zero word), the
  two broadcasts place them along the other set, and the batched product contracted over the coordinates is the inner
  product. Its minimum along the last axis followed by the square root is therefore `nearest` of the first set against
  the second, and its minimum along the middle axis followed by the square root is `nearest` of the second set against
  the first, `dist2` being symmetric. What follows the two square roots is one host tail, named here.
-/
import proofs.«140770_j50070728737514_1_alg».proof.Proof.Gen.ReferenceIdeal.Read
import proofs.«140770_j50070728737514_1_alg».proof.Proof.Spec
import proofs.«140770_j50070728737514_1_alg».proof.Proof.LibRank3UnitAxes
import proofs.«140770_j50070728737514_1_alg».proof.Proof.LibMidAxisMin

noncomputable section

open scoped BigOperators

namespace Cert.ReferenceIdeal.RefValue

open Cert.ReferenceIdeal Cert.ReferenceIdeal.Gen Cert.ReferenceIdeal.Read Idealize.ShloMosaic Idealize.ShloMosaic.ValueIdx Cert.Chamfer

variable (x0 x1 : (⟨S4x8192x3, .f32⟩ : BufTy).Contents (Elt Ideal))

/-- The reference's clamped squared distance at (b, n, m). -/
theorem v18_apply (b : Fin 4) (n m : Fin 8192) :
    val_main_v18 (F := Ideal) x0 x1 (ix3 b n m)
      = dist2 (pt (val_main_v1 (F := Ideal) x0) b n) (pt (val_main_v3 (F := Ideal) x1) b m) := by
  have e5 : ∀ k : Fin 3, idx_main_v5 (idx_main_v9 (idx_main_v11 (ix3 b n m))) k = ix3 b n k := fun k =>
    funext fun a => Fin.ext (by match a with | ⟨0, _⟩ => rfl | ⟨1, _⟩ => rfl | ⟨2, _⟩ => rfl)
  have e7 : ∀ k : Fin 3, idx_main_v7 (idx_main_v10 (idx_main_v12 (ix3 b n m))) k = ix3 b m k := fun k =>
    funext fun a => Fin.ext (by match a with | ⟨0, _⟩ => rfl | ⟨1, _⟩ => rfl | ⟨2, _⟩ => rfl)
  have el : ∀ k : Fin 3, lidx_main_v8 (ix3 b n m) k = ix3 b n k := fun k =>
    funext fun a => Fin.ext (by match a with | ⟨0, _⟩ => rfl | ⟨1, _⟩ => rfl | ⟨2, _⟩ => rfl)
  have er : ∀ k : Fin 3, ridx_main_v8 (ix3 b n m) k = ix3 b m k := fun k =>
    funext fun a => Fin.ext (by match a with | ⟨0, _⟩ => rfl | ⟨1, _⟩ => rfl | ⟨2, _⟩ => rfl)
  rw [val_main_v18_apply, val_main_v16_apply, val_main_v13_apply, val_main_v15_apply, val_main_v11_apply, val_main_v12_apply,
    val_main_v9_apply, val_main_v10_apply, val_main_v5_apply, val_main_v7_apply, val_main_v8_apply, val_main_v14_apply, val_main_v17_apply]
  simp only [e5, e7, el, er, val_main_v4_apply, val_main_v6_apply]
  unfold dist2 pt
  simp only [val_main_cst_1, val_main_cst_2, val_main_cst_3, val_main_cst_4, constant_apply, Ideal.mulf_def, Ideal.addf_def,
    Ideal.subf_def, Ideal.maximumf_def, Ideal.ofBits_zero_f32, zero_add]

/-- The reference's first one-sided cost at (b, n): the distance from point n of the first set to the nearest of the second. -/
theorem v21_apply (b : Fin 4) (n : Fin 8192) :
    val_main_v21 (F := Ideal) x0 x1 (ix2 b n) = nearest (val_main_v1 (F := Ideal) x0) (val_main_v3 (F := Ideal) x1) b n := by
  rw [val_main_v21_apply, Ideal.hostUnary_sqrt_def]
  unfold val_main_v19 nearest
  refine congrArg Ideal.sqrt ?_
  refine (Cert.Rank3UnitAxes.hostReduce_minimumf_last _ _ reducesTo_S4x8192x8192_S4x8192_d2 (by decide) h_S_ b n).trans ?_
  refine (congrArg (fun z => (Finset.univ : Finset (Fin 8192)).fold min z _)
    (show val_main_cst_5 (F := Ideal) (Shape.Idx.first h_S_) = (⊤ : EReal) from ofBits_inf)).trans ?_
  show (Finset.univ : Finset (Fin 8192)).inf _ = _
  exact Finset.inf_congr rfl fun m _ => v18_apply x0 x1 b n m

/-- The reference's second one-sided cost at (b, m): the distance from point m of the second set to the nearest of the first. -/
theorem v25_apply (b : Fin 4) (m : Fin 8192) :
    val_main_v25 (F := Ideal) x0 x1 (ix2 b m) = nearest (val_main_v3 (F := Ideal) x1) (val_main_v1 (F := Ideal) x0) b m := by
  rw [val_main_v25_apply, Ideal.hostUnary_sqrt_def]
  unfold val_main_v20 nearest
  refine congrArg Ideal.sqrt ?_
  refine (Cert.MidAxisMin.hostReduce_minimumf_mid _ _ reducesTo_S4x8192x8192_S4x8192_d1 (by decide) h_S_ b m).trans ?_
  refine (congrArg (fun z => (Finset.univ : Finset (Fin 8192)).fold min z _)
    (show val_main_cst_6 (F := Ideal) (Shape.Idx.first h_S_) = (⊤ : EReal) from ofBits_inf)).trans ?_
  show (Finset.univ : Finset (Fin 8192)).inf _ = _
  exact Finset.inf_congr rfl fun n _ => (v18_apply x0 x1 b n m).trans (dist2_comm _ _)

/-- What both programs do with the two [4, 8192] arrays of one-sided costs: each row's mean (sum over 8192), the
    half-sum of the two means, and the mean over the four batches. -/
def tail (A B : FVec Ideal S4x8192 .f32) : FVec Ideal S_ .f32 :=
  Host.divf (F := Ideal)
    (Host.reduceAdd (F := Ideal)
      (Host.divf (F := Ideal)
        (addf
          (Host.divf (F := Ideal) (Host.reduceAdd (F := Ideal) A (val_main_cst_7 (F := Ideal) : FVec Ideal S_ .f32) reducesTo_S4x8192_S4_d1 h_S_ : FVec Ideal S4 .f32) (val_main_v23 (F := Ideal) : FVec Ideal S4 .f32))
          (Host.divf (F := Ideal) (Host.reduceAdd (F := Ideal) B (val_main_cst_9 (F := Ideal) : FVec Ideal S_ .f32) reducesTo_S4x8192_S4_d1 h_S_ : FVec Ideal S4 .f32) (val_main_v27 (F := Ideal) : FVec Ideal S4 .f32)) : FVec Ideal S4 .f32)
        (val_main_v30 (F := Ideal) : FVec Ideal S4 .f32) : FVec Ideal S4 .f32)
      (val_main_cst_12 (F := Ideal) : FVec Ideal S_ .f32) reducesTo_S4_S_d0 h_S_ : FVec Ideal S_ .f32)
    (val_main_cst_13 (F := Ideal) : FVec Ideal S_ .f32)

theorem v33_eq : val_main_v33 (F := Ideal) x0 x1 = tail (val_main_v21 (F := Ideal) x0 x1) (val_main_v25 (F := Ideal) x0 x1) := rfl

/-- The reference's result from the two `nearest` arrays. -/
theorem result_eq (A B : FVec Ideal S4x8192 .f32)
    (hA : ∀ b n, A (ix2 b n) = nearest (val_main_v1 (F := Ideal) x0) (val_main_v3 (F := Ideal) x1) b n)
    (hB : ∀ b m, B (ix2 b m) = nearest (val_main_v3 (F := Ideal) x1) (val_main_v1 (F := Ideal) x0) b m) :
    val_main_v33 (F := Ideal) x0 x1 = tail A B := by
  have eA : val_main_v21 (F := Ideal) x0 x1 = A := funext fun j =>
    (congrArg (val_main_v21 (F := Ideal) x0 x1) (eq_ix2 j)).trans
      ((v21_apply x0 x1 (j 0) (j 1)).trans ((hA (j 0) (j 1)).symm.trans (congrArg A (eq_ix2 j).symm)))
  have eB : val_main_v25 (F := Ideal) x0 x1 = B := funext fun j =>
    (congrArg (val_main_v25 (F := Ideal) x0 x1) (eq_ix2 j)).trans
      ((v25_apply x0 x1 (j 0) (j 1)).trans ((hB (j 0) (j 1)).symm.trans (congrArg B (eq_ix2 j).symm)))
  exact (v33_eq x0 x1).trans (congrArg₂ tail eA eB)

end Cert.ReferenceIdeal.RefValue

end
-- ==== Proof.Bridge.lean ====
/-
  The two idealized programs compute one number.

  The kernel's @main, read off the fold of its buffer contents: the first host stretch leaves the two scaled point sets
  (the reference's own first two stages); region 0 leaves, in its result array, `nearest` of the first set against the
  second, and region 1 — the same body with the two sets swapped, entered where region 0 is left, which changed neither
  set — `nearest` of the second against the first; the last host stretch is the reference's tail applied to those two
  arrays. The reference's result is that tail of the same two arrays.
-/
import proofs.«140770_j50070728737514_1_alg».proof.Proof.Ideal.Run
import proofs.«140770_j50070728737514_1_alg».proof.Proof.Ideal.Value0
import proofs.«140770_j50070728737514_1_alg».proof.Proof.Ideal.Value1
import proofs.«140770_j50070728737514_1_alg».proof.Proof.RefValue
import proofs.«140770_j50070728737514_1_alg».proof.Defs
import Idealize.ShloMosaic.Lib.StableHlo.Run

set_option maxRecDepth 16384

noncomputable section

namespace Cert.KernelIdeal.Hand

open Cert.KernelIdeal Cert.KernelIdeal.Gen Cert.Chamfer
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ)

/-! ## The scaled point sets -/

/-- The first scaled set, as region 0 finds it: the reference's stage of the same name. -/
theorem V1_v1 (c : Dev nD) :
    (V1 m c main_v1 : FVec Ideal S4x8192x3 .f32) = Cert.ReferenceIdeal.Read.val_main_v1 (F := Ideal) (m ((c : Thread nD τ).loc main_arg0)) := by
  show StableHlo.after hostOps0 (W0 m c) (Proc.devRef .tc main_v1) = _
  after_results
  rfl

/-- The second scaled set. -/
theorem V1_v3 (c : Dev nD) :
    (V1 m c main_v3 : FVec Ideal S4x8192x3 .f32) = Cert.ReferenceIdeal.Read.val_main_v3 (F := Ideal) (m ((c : Thread nD τ).loc main_arg1)) := by
  show StableHlo.after hostOps0 (W0 m c) (Proc.devRef .tc main_v3) = _
  after_results
  rfl

/-- Region 0 only reads them: region 1 finds them as region 0 did. -/
theorem V2_v1 (c : Dev nD) : V2 m c main_v1 = V1 m c main_v1 :=
  (W2_arr m c 0).trans (((dat0 (V1 m) c).arrAt_in 0 rfl _).trans (A_eq0 (V1 m) c 0))
theorem V2_v3 (c : Dev nD) : V2 m c main_v3 = V1 m c main_v3 :=
  (W2_arr m c 1).trans (((dat0 (V1 m) c).arrAt_in 1 rfl _).trans (A_eq0 (V1 m) c 1))

/-! ## The two result arrays at the last boundary before the tail -/

theorem W3_v4 (c : Dev nD) : W3 m c (Proc.devRef .tc main_v4) = G0 (V1 m) c :=
  (W3_of_ne m c main_v4 (by decide)).trans ((W2_arr m c 2).trans (final0 (V1 m) c))

theorem W3_v5 (c : Dev nD) : W3 m c (Proc.devRef .tc main_v5) = G1 (V2 m) c :=
  (W3_arr m c 2).trans (final1 (V2 m) c)

/-! ## The tail -/

/-- The last host stretch is the reference's tail of the two result arrays. -/
theorem W4_v16 (c : Dev nD) :
    (W4 m c (Proc.devRef .tc main_v16) : FVec Ideal S_ .f32)
      = Cert.ReferenceIdeal.RefValue.tail (W3 m c (Proc.devRef .tc main_v4)) (W3 m c (Proc.devRef .tc main_v5)) := by
  show StableHlo.after hostOps2 (W3 m c) (Proc.devRef .tc main_v16) = _
  after_results
  rfl

/-- THE KERNEL'S RESULT is the reference's term of the argument arrays. -/
theorem result_eq (c : Dev nD) :
    (W4 m c (Proc.devRef .tc main_v16) : FVec Ideal S_ .f32)
      = Cert.ReferenceIdeal.Read.val_main_v33 (F := Ideal) (m ((c : Thread nD τ).loc main_arg0)) (m ((c : Thread nD τ).loc main_arg1)) := by
  rw [W4_v16, W3_v4, W3_v5]
  refine (Cert.ReferenceIdeal.RefValue.result_eq _ _ _ _ (fun b n => ?_) (fun b k => ?_)).symm
  · show nearest (V1 m c main_v1) (V1 m c main_v3) b n = _
    rw [V1_v1, V1_v3]
  · show nearest (V2 m c main_v3) (V2 m c main_v1) b k = _
    rw [V2_v1, V2_v3, V1_v1, V1_v3]

end Cert.KernelIdeal.Hand

end
-- ==== Proof.lean ====
/-
  The symmetric Chamfer distance between two sets of 8192 points of ℝ³ in each of four batches: for each point of one
  set the distance to the nearest point of the other, averaged over the set; the two one-sided averages halved and
  summed; the mean over the batches.

  The kernel takes each one-sided cost in one region of 16 × 16 grid points — a tile of 512 query points against a tile
  of 512 key points, the least clamped squared distance ‖p‖² + ‖q‖² − 2⟨p, q⟩ per query kept in a scratch buffer through
  the sixteen key tiles and its square root stored at the last — and the second region is the first with the two sets
  swapped. The reference forms all 8192 × 8192 clamped squared distances once and takes their minimum along the last axis
  and along the middle axis. At the ideal values the two agree entry by entry: an infimum over 8192 keys is the infimum
  of the sixteen tile infima, a running minimum from +∞ is the infimum of what it has seen, and the squared distance is
  symmetric in its two points by commutativity of + and · alone — so the claim holds on all extended reals and the
  precondition is never opened. The host tail after the square roots is the same text in both programs.

  The three frames: the reference runs as a straight line of host operations; each kernel program runs as a host
  stretch, the two regions, and a host stretch, no segment writing an argument array. The ideal pass rewrote nothing,
  so the idealization is the program's own text read at the ideal values.
-/
import proofs.«140770_j50070728737514_1_alg».proof.Defs
import proofs.«140770_j50070728737514_1_alg».proof.Proof.Gen.Kernel
import proofs.«140770_j50070728737514_1_alg».proof.Proof.Gen.KernelIdeal
import proofs.«140770_j50070728737514_1_alg».proof.Proof.Gen.ReferenceIdeal
import proofs.«140770_j50070728737514_1_alg».proof.Proof.Gen.Pre_finite_inputs
import proofs.«140770_j50070728737514_1_alg».proof.Proof.Gen.ReferenceIdeal.Run
import proofs.«140770_j50070728737514_1_alg».proof.Proof.Gen.ReferenceIdeal.Read
import proofs.«140770_j50070728737514_1_alg».proof.Proof.Bits.Run
import proofs.«140770_j50070728737514_1_alg».proof.Proof.Ideal.Run
import proofs.«140770_j50070728737514_1_alg».proof.Proof.Bridge

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the reference's term of the argument arrays. -/
theorem algebraic : Cert.algebraic_KernelIdeal_ReferenceIdeal := by
  intro m ρ m' ρ' _ hagree
  refine ⟨fun c => Cert.KernelIdeal.Hand.W4 m c (Proc.devRef .tc Cert.KernelIdeal.main_v16), ?_, ?_⟩
  · exact (θ_run Cert.KernelIdeal.defs _ _).mono (fun r h c =>
      ⟨h c _ (Cert.KernelIdeal.Hand.mem_uc Cert.KernelIdeal.main_v16 (by decide)),
       (h c _ (Cert.KernelIdeal.Hand.mem_uc Cert.KernelIdeal.main_arg0 (by decide))).trans
         (Cert.KernelIdeal.Hand.W4_of_arg m c Cert.KernelIdeal.main_arg0 (.inl rfl)),
       (h c _ (Cert.KernelIdeal.Hand.mem_uc Cert.KernelIdeal.main_arg1 (by decide))).trans
         (Cert.KernelIdeal.Hand.W4_of_arg m c Cert.KernelIdeal.main_arg1 (.inr rfl))⟩)
      (Cert.KernelIdeal.Hand.run (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2]
    exact (Cert.KernelIdeal.Hand.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
